-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x56x56 : Shape := ⟨4, ![16, 64, 56, 56]⟩
abbrev S256x1152 : Shape := ⟨2, ![256, 1152]⟩
abbrev S128x256 : Shape := ⟨2, ![128, 256]⟩
abbrev S_ : Shape := ⟨0, ![]⟩

class Facts : Prop where
  bcast_S_S16x64x56x56 : S_.BroadcastsInDim S16x64x56x56 (![] : Fin 0 → Fin S16x64x56x56.rank)
  reducesTo_S16x64x56x56_S_d0_1_2_3 : S16x64x56x56.ReducesTo [0, 1, 2, 3] S_
  h_S_ : 0 < S_.numel
  bcast_S_S256x1152 : S_.BroadcastsInDim S256x1152 (![] : Fin 0 → Fin S256x1152.rank)
  reducesTo_S256x1152_S_d0_1 : S256x1152.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S16x64x56x56 .f32) (main_arg1 : FVec F S256x1152 .f32) (main_arg2 : FVec F S128x256 .f32) : IVec S_ 1 :=
  let main_v0 : FVec F S16x64x56x56 .f32 := Host.absf main_arg0
  let main_cst : FVec F S_ .f32 := constant S_ .f32 0x7F800000#32
  let main_v1 : FVec F S16x64x56x56 .f32 := broadcastInDim S16x64x56x56 ![] bcast_S_S16x64x56x56 main_cst
  let main_v2 : IVec S16x64x56x56 1 := cmpf .olt main_v0 main_v1
  let main_c : IVec S_ 1 := constantI S_ 1 1#1
  let main_v3 : IVec S_ 1 := (fun x v => Host.reduce IntOp.andi x v reducesTo_S16x64x56x56_S_d0_1_2_3 h_S_) main_v2 main_c
  let main_v4 : FVec F S256x1152 .f32 := Host.absf main_arg1
  let main_cst_0 : FVec F S_ .f32 := constant S_ .f32 0x7F800000#32
  let main_v5 : FVec F S256x1152 .f32 := broadcastInDim S256x1152 ![] bcast_S_S256x1152 main_cst_0
  let main_v6 : IVec S256x1152 1 := cmpf .olt main_v4 main_v5
  let main_c_1 : IVec S_ 1 := constantI S_ 1 1#1
  let main_v7 : IVec S_ 1 := (fun x v => Host.reduce IntOp.andi x v reducesTo_S256x1152_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S16x64x56x56 : Shape := ⟨4, ![16, 64, 56, 56]⟩
abbrev S256x1152 : Shape := ⟨2, ![256, 1152]⟩
abbrev S128x256 : Shape := ⟨2, ![128, 256]⟩
abbrev S_ : Shape := ⟨0, ![]⟩
abbrev S16x64x58x58 : Shape := ⟨4, ![16, 64, 58, 58]⟩
abbrev S16x64x1x56x56 : Shape := ⟨5, ![16, 64, 1, 56, 56]⟩
abbrev S16x64x9x56x56 : Shape := ⟨5, ![16, 64, 9, 56, 56]⟩
abbrev S16x576x3136 : Shape := ⟨3, ![16, 576, 3136]⟩
abbrev S16x3136x576 : Shape := ⟨3, ![16, 3136, 576]⟩
abbrev S50176x576 : Shape := ⟨2, ![50176, 576]⟩
abbrev S256x576 : Shape := ⟨2, ![256, 576]⟩
abbrev S576x256 : Shape := ⟨2, ![576, 256]⟩
abbrev S256x128 : Shape := ⟨2, ![256, 128]⟩
abbrev S50176x128 : Shape := ⟨2, ![50176, 128]⟩
abbrev S1024x576 : Shape := ⟨2, ![1024, 576]⟩
abbrev S1024x128 : Shape := ⟨2, ![1024, 128]⟩
abbrev S1024x256 : Shape := ⟨2, ![1024, 256]⟩
abbrev S16x3136x128 : Shape := ⟨3, ![16, 3136, 128]⟩
abbrev S16x128x3136 : Shape := ⟨3, ![16, 128, 3136]⟩
abbrev S16x128x56x56 : Shape := ⟨4, ![16, 128, 56, 56]⟩

abbrev nBuf : Space → Nat
  | .hbm => 49
  | .vmem => 7
  | .smem => 0
  | _ => 0

abbrev bufTy : (tb : Table) → Fin (tcTables nBuf tb) → BufTy
  | .hbm, ⟨0, _⟩ => ⟨S16x64x56x56, .f32⟩
  | .hbm, ⟨1, _⟩ => ⟨S256x1152, .f32⟩
  | .hbm, ⟨2, _⟩ => ⟨S128x256, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S16x64x56x56, .f32⟩
  | .hbm, ⟨7, _⟩ => ⟨S16x64x56x56, .f32⟩
  | .hbm, ⟨8, _⟩ => ⟨S16x64x56x56, .f32⟩
  | .hbm, ⟨9, _⟩ => ⟨S16x64x56x56, .f32⟩
  | .hbm, ⟨10, _⟩ => ⟨S16x64x56x56, .f32⟩
  | .hbm, ⟨11, _⟩ => ⟨S16x64x56x56, .f32⟩
  | .hbm, ⟨12, _⟩ => ⟨S16x64x56x56, .f32⟩
  | .hbm, ⟨13, _⟩ => ⟨S16x64x56x56, .f32⟩
  | .hbm, ⟨14, _⟩ => ⟨S16x64x56x56, .f32⟩
  | .hbm, ⟨15, _⟩ => ⟨S16x64x1x56x56, .f32⟩
  | .hbm, ⟨16, _⟩ => ⟨S16x64x1x56x56, .f32⟩
  | .hbm, ⟨17, _⟩ => ⟨S16x64x1x56x56, .f32⟩
  | .hbm, ⟨18, _⟩ => ⟨S16x64x1x56x56, .f32⟩
  | .hbm, ⟨19, _⟩ => ⟨S16x64x1x56x56, .f32⟩
  | .hbm, ⟨20, _⟩ => ⟨S16x64x1x56x56, .f32⟩
  | .hbm, ⟨21, _⟩ => ⟨S16x64x1x56x56, .f32⟩
  | .hbm, ⟨22, _⟩ => ⟨S16x64x1x56x56, .f32⟩
  | .hbm, ⟨23, _⟩ => ⟨S16x64x1x56x56, .f32⟩
  | .hbm, ⟨24, _⟩ => ⟨S16x64x9x56x56, .f32⟩
  | .hbm, ⟨25, _⟩ => ⟨S16x576x3136, .f32⟩
  | .hbm, ⟨26, _⟩ => ⟨S16x3136x576, .f32⟩
  | .hbm, ⟨27, _⟩ => ⟨S50176x576, .f32⟩
  | .hbm, ⟨28, _⟩ => ⟨S256x1152, .f32⟩
  | .hbm, ⟨29, _⟩ => ⟨S256x1152, .f32⟩
  | .hbm, ⟨30, _⟩ => ⟨S_, .f32⟩
  | .hbm, ⟨31, _⟩ => ⟨S256x1152, .f32⟩
  | .hbm, ⟨32, _⟩ => ⟨S256x1152, .f32⟩
  | .hbm, ⟨33, _⟩ => ⟨S_, .f32⟩
  | .hbm, ⟨34, _⟩ => ⟨S256x1152, .f32⟩
  | .hbm, ⟨35, _⟩ => ⟨S256x1152, .f32⟩
  | .hbm, ⟨36, _⟩ => ⟨S_, .f32⟩
  | .hbm, ⟨37, _⟩ => ⟨S256x1152, .f32⟩
  | .hbm, ⟨38, _⟩ => ⟨S256x1152, .i1⟩
  | .hbm, ⟨39, _⟩ => ⟨S256x1152, .f32⟩
  | .hbm, ⟨40, _⟩ => ⟨S256x576, .f32⟩
  | .hbm, ⟨41, _⟩ => ⟨S576x256, .f32⟩
  | .hbm, ⟨42, _⟩ => ⟨S256x576, .f32⟩
  | .hbm, ⟨43, _⟩ => ⟨S576x256, .f32⟩
  | .hbm, ⟨44, _⟩ => ⟨S256x128, .f32⟩
  | .hbm, ⟨45, _⟩ => ⟨S50176x128, .f32⟩
  | .hbm, ⟨46, _⟩ => ⟨S16x3136x128, .f32⟩
  | .hbm, ⟨47, _⟩ => ⟨S16x128x3136, .f32⟩
  | .hbm, ⟨48, _⟩ => ⟨S16x128x56x56, .f32⟩
  | .local _ .vmem, ⟨0, _⟩ => ⟨S1024x576, .f32⟩
  | .local _ .vmem, ⟨1, _⟩ => ⟨S1024x576, .f32⟩
  | .local _ .vmem, ⟨2, _⟩ => ⟨S576x256, .f32⟩
  | .local _ .vmem, ⟨3, _⟩ => ⟨S576x256, .f32⟩
  | .local _ .vmem, ⟨4, _⟩ => ⟨S256x128, .f32⟩
  | .local _ .vmem, ⟨5, _⟩ => ⟨S1024x128, .f32⟩
  | .local _ .vmem, ⟨6, _⟩ => ⟨S1024x128, .f32⟩
  | _, _ => ⟨S16x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x1x56x56_0_1_3_4 : S16x64x56x56.BroadcastsInDim S16x64x1x56x56 (![0, 1, 3, 4] : Fin 4 → Fin S16x64x1x56x56.rank)
  concatenates_S16x64x1x56x56_S16x64x1x56x56_S16x64x1x56x56_S16x64x1x56x56_S16x64x1x56x56_S16x64x1x56x56_S16x64x1x56x56_S16x64x1x56x56_S16x64x1x56x56_S16x64x9x56x56_d2 : Shape.Concatenates [S16x64x1x56x56, S16x64x1x56x56, S16x64x1x56x56, S16x64x1x56x56, S16x64x1x56x56, S16x64x1x56x56, S16x64x1x56x56, S16x64x1x56x56, S16x64x1x56x56] S16x64x9x56x56 2
  shapeCasts_S16x64x9x56x56_S16x576x3136 : S16x64x9x56x56.ShapeCasts S16x576x3136
  transposes_S16x576x3136_S16x3136x576_0_2_1 : S16x576x3136.Transposes [0, 2, 1] S16x3136x576
  shapeCasts_S16x3136x576_S50176x576 : S16x3136x576.ShapeCasts S50176x576
  bcast_S_S256x1152 : S_.BroadcastsInDim S256x1152 (![] : Fin 0 → Fin S256x1152.rank)
  slices_S256x1152_S256x576_0_0 : S256x1152.Slices ![0, 0] S256x576
  transposes_S256x576_S576x256_1_0 : S256x576.Transposes [1, 0] S576x256
  slices_S256x1152_S256x576_0_576 : S256x1152.Slices ![0, 576] S256x576
  transposes_S128x256_S256x128_1_0 : S128x256.Transposes [1, 0] S256x128
  inb_S1024x576_S1024x576_0_0 : ∀ a, (![0, 0] : Fin 2 → Nat) a + S1024x576.size a ≤ S1024x576.size a
  h_S1024x576 : 0 < S1024x576.numel
  shapeCasts_S1024x576_S1024x576 : S1024x576.ShapeCasts S1024x576
  inb_S576x256_S576x256_0_0 : ∀ a, (![0, 0] : Fin 2 → Nat) a + S576x256.size a ≤ S576x256.size a
  h_S576x256 : 0 < S576x256.numel
  shapeCasts_S576x256_S576x256 : S576x256.ShapeCasts S576x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S50176x128_S16x3136x128 : S50176x128.ShapeCasts S16x3136x128
  transposes_S16x3136x128_S16x128x3136_0_2_1 : S16x3136x128.Transposes [0, 2, 1] S16x128x3136
  shapeCasts_S16x128x3136_S16x128x56x56 : S16x128x3136.ShapeCasts S16x128x56x56
  dot_S1024x576_S576x256_S1024x256_1_0_0_1_n_n_wf : DotDims.WF S1024x576 S576x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x576.size a ≤ S50176x576.size a
  hwx0_0 : ∀ i : grid0.Coords, EltTy.bits .f32 = 32 ∨ (Rect.block (s := S50176x576) S1024x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x256.size a ≤ S576x256.size a
  hwx0_1 : ∀ i : grid0.Coords, EltTy.bits .f32 = 32 ∨ (Rect.block (s := S576x256) S576x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576x256.size a ≤ S576x256.size a
  hwx0_2 : ∀ i : grid0.Coords, EltTy.bits .f32 = 32 ∨ (Rect.block (s := S576x256) S576x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S50176x128.size a
  hwx0_4 : ∀ i : grid0.Coords, EltTy.bits .f32 = 32 ∨ (Rect.block (s := S50176x128) S1024x128.size (cc0_transform_4 i) (hinb0_4 i)).WholeWords (EltTy.packing .f32)

variable [Facts₀]

def dot_S1024x576_S576x256_S1024x256_1_0_0_1_n_n : DotDims S1024x576 S576x256 S1024x256 where
  lhsContracting := [1]
  rhsContracting := [0]
  lhsNonContracting := [0]
  rhsNonContracting := [1]
  lhsBatch := []
  rhsBatch := []
  wf := dot_S1024x576_S576x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v22) S1024x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S576x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S576x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x56x56 : Shape := ⟨4, ![16, 64, 56, 56]⟩
abbrev S256x1152 : Shape := ⟨2, ![256, 1152]⟩
abbrev S128x256 : Shape := ⟨2, ![128, 256]⟩
abbrev S_ : Shape := ⟨0, ![]⟩
abbrev S16x64x58x58 : Shape := ⟨4, ![16, 64, 58, 58]⟩
abbrev S16x64x1x56x56 : Shape := ⟨5, ![16, 64, 1, 56, 56]⟩
abbrev S16x64x9x56x56 : Shape := ⟨5, ![16, 64, 9, 56, 56]⟩
abbrev S16x576x3136 : Shape := ⟨3, ![16, 576, 3136]⟩
abbrev S16x3136x576 : Shape := ⟨3, ![16, 3136, 576]⟩
abbrev S50176x576 : Shape := ⟨2, ![50176, 576]⟩
abbrev S50176x1152 : Shape := ⟨2, ![50176, 1152]⟩
abbrev S1152x256 : Shape := ⟨2, ![1152, 256]⟩
abbrev S50176x256 : Shape := ⟨2, ![50176, 256]⟩
abbrev S256x128 : Shape := ⟨2, ![256, 128]⟩
abbrev S50176x128 : Shape := ⟨2, ![50176, 128]⟩
abbrev S16x3136x128 : Shape := ⟨3, ![16, 3136, 128]⟩
abbrev S16x128x3136 : Shape := ⟨3, ![16, 128, 3136]⟩
abbrev S16x128x56x56 : Shape := ⟨4, ![16, 128, 56, 56]⟩

abbrev nBuf : Space → Nat
  | .hbm => 58
  | .vmem => 0
  | .smem => 0
  | _ => 0

abbrev bufTy : (tb : Table) → Fin (tcTables nBuf tb) → BufTy
  | .hbm, ⟨0, _⟩ => ⟨S16x64x56x56, .f32⟩
  | .hbm, ⟨1, _⟩ => ⟨S256x1152, .f32⟩
  | .hbm, ⟨2, _⟩ => ⟨S128x256, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S16x64x56x56, .f32⟩
  | .hbm, ⟨7, _⟩ => ⟨S16x64x56x56, .f32⟩
  | .hbm, ⟨8, _⟩ => ⟨S16x64x56x56, .f32⟩
  | .hbm, ⟨9, _⟩ => ⟨S16x64x56x56, .f32⟩
  | .hbm, ⟨10, _⟩ => ⟨S16x64x56x56, .f32⟩
  | .hbm, ⟨11, _⟩ => ⟨S16x64x56x56, .f32⟩
  | .hbm, ⟨12, _⟩ => ⟨S16x64x56x56, .f32⟩
  | .hbm, ⟨13, _⟩ => ⟨S16x64x56x56, .f32⟩
  | .hbm, ⟨14, _⟩ => ⟨S16x64x56x56, .f32⟩
  | .hbm, ⟨15, _⟩ => ⟨S16x64x1x56x56, .f32⟩
  | .hbm, ⟨16, _⟩ => ⟨S16x64x1x56x56, .f32⟩
  | .hbm, ⟨17, _⟩ => ⟨S16x64x1x56x56, .f32⟩
  | .hbm, ⟨18, _⟩ => ⟨S16x64x1x56x56, .f32⟩
  | .hbm, ⟨19, _⟩ => ⟨S16x64x1x56x56, .f32⟩
  | .hbm, ⟨20, _⟩ => ⟨S16x64x1x56x56, .f32⟩
  | .hbm, ⟨21, _⟩ => ⟨S16x64x1x56x56, .f32⟩
  | .hbm, ⟨22, _⟩ => ⟨S16x64x1x56x56, .f32⟩
  | .hbm, ⟨23, _⟩ => ⟨S16x64x1x56x56, .f32⟩
  | .hbm, ⟨24, _⟩ => ⟨S16x64x9x56x56, .f32⟩
  | .hbm, ⟨25, _⟩ => ⟨S16x576x3136, .f32⟩
  | .hbm, ⟨26, _⟩ => ⟨S16x3136x576, .f32⟩
  | .hbm, ⟨27, _⟩ => ⟨S50176x576, .f32⟩
  | .hbm, ⟨28, _⟩ => ⟨S_, .f32⟩
  | .hbm, ⟨29, _⟩ => ⟨S50176x576, .f32⟩
  | .hbm, ⟨30, _⟩ => ⟨S50176x576, .f32⟩
  | .hbm, ⟨31, _⟩ => ⟨S50176x1152, .f32⟩
  | .hbm, ⟨32, _⟩ => ⟨S256x1152, .f32⟩
  | .hbm, ⟨33, _⟩ => ⟨S256x1152, .f32⟩
  | .hbm, ⟨34, _⟩ => ⟨S_, .f32⟩
  | .hbm, ⟨35, _⟩ => ⟨S256x1152, .f32⟩
  | .hbm, ⟨36, _⟩ => ⟨S256x1152, .f32⟩
  | .hbm, ⟨37, _⟩ => ⟨S_, .f32⟩
  | .hbm, ⟨38, _⟩ => ⟨S256x1152, .f32⟩
  | .hbm, ⟨39, _⟩ => ⟨S256x1152, .f32⟩
  | .hbm, ⟨40, _⟩ => ⟨S_, .f32⟩
  | .hbm, ⟨41, _⟩ => ⟨S256x1152, .f32⟩
  | .hbm, ⟨42, _⟩ => ⟨S256x1152, .i1⟩
  | .hbm, ⟨43, _⟩ => ⟨S256x1152, .f32⟩
  | .hbm, ⟨44, _⟩ => ⟨S256x1152, .f32⟩
  | .hbm, ⟨45, _⟩ => ⟨S256x1152, .f32⟩
  | .hbm, ⟨46, _⟩ => ⟨S_, .f32⟩
  | .hbm, ⟨47, _⟩ => ⟨S50176x1152, .f32⟩
  | .hbm, ⟨48, _⟩ => ⟨S50176x1152, .f32⟩
  | .hbm, ⟨49, _⟩ => ⟨S50176x1152, .f32⟩
  | .hbm, ⟨50, _⟩ => ⟨S1152x256, .f32⟩
  | .hbm, ⟨51, _⟩ => ⟨S50176x256, .f32⟩
  | .hbm, ⟨52, _⟩ => ⟨S50176x256, .f32⟩
  | .hbm, ⟨53, _⟩ => ⟨S256x128, .f32⟩
  | .hbm, ⟨54, _⟩ => ⟨S50176x128, .f32⟩
  | .hbm, ⟨55, _⟩ => ⟨S16x3136x128, .f32⟩
  | .hbm, ⟨56, _⟩ => ⟨S16x128x3136, .f32⟩
  | .hbm, ⟨57, _⟩ => ⟨S16x128x56x56, .f32⟩
  | _, _ => ⟨S16x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x1x56x56_0_1_3_4 : S16x64x56x56.BroadcastsInDim S16x64x1x56x56 (![0, 1, 3, 4] : Fin 4 → Fin S16x64x1x56x56.rank)
  concatenates_S16x64x1x56x56_S16x64x1x56x56_S16x64x1x56x56_S16x64x1x56x56_S16x64x1x56x56_S16x64x1x56x56_S16x64x1x56x56_S16x64x1x56x56_S16x64x1x56x56_S16x64x9x56x56_d2 : Shape.Concatenates [S16x64x1x56x56, S16x64x1x56x56, S16x64x1x56x56, S16x64x1x56x56, S16x64x1x56x56, S16x64x1x56x56, S16x64x1x56x56, S16x64x1x56x56, S16x64x1x56x56] S16x64x9x56x56 2
  shapeCasts_S16x64x9x56x56_S16x576x3136 : S16x64x9x56x56.ShapeCasts S16x576x3136
  transposes_S16x576x3136_S16x3136x576_0_2_1 : S16x576x3136.Transposes [0, 2, 1] S16x3136x576
  shapeCasts_S16x3136x576_S50176x576 : S16x3136x576.ShapeCasts S50176x576
  bcast_S_S50176x576 : S_.BroadcastsInDim S50176x576 (![] : Fin 0 → Fin S50176x576.rank)
  concatenates_S50176x576_S50176x576_S50176x1152_d1 : Shape.Concatenates [S50176x576, S50176x576] S50176x1152 1
  bcast_S_S256x1152 : S_.BroadcastsInDim S256x1152 (![] : Fin 0 → Fin S256x1152.rank)
  bcast_S_S50176x1152 : S_.BroadcastsInDim S50176x1152 (![] : Fin 0 → Fin S50176x1152.rank)
  transposes_S256x1152_S1152x256_1_0 : S256x1152.Transposes [1, 0] S1152x256
  transposes_S128x256_S256x128_1_0 : S128x256.Transposes [1, 0] S256x128
  shapeCasts_S50176x128_S16x3136x128 : S50176x128.ShapeCasts S16x3136x128
  transposes_S16x3136x128_S16x128x3136_0_2_1 : S16x3136x128.Transposes [0, 2, 1] S16x128x3136
  shapeCasts_S16x128x3136_S16x128x56x56 : S16x128x3136.ShapeCasts S16x128x56x56
  dot_S50176x1152_S1152x256_S50176x256_1_0_0_1_n_n_wf : DotDims.WF S50176x1152 S1152x256 S50176x256 [1] [0] [0] [1] [] []
  dot_S50176x256_S256x128_S50176x128_1_0_0_1_n_n_wf : DotDims.WF S50176x256 S256x128 S50176x128 [1] [0] [0] [1] [] []

variable [Facts₀]

def dot_S50176x1152_S1152x256_S50176x256_1_0_0_1_n_n : DotDims S50176x1152 S1152x256 S50176x256 where
  lhsContracting := [1]
  rhsContracting := [0]
  lhsNonContracting := [0]
  rhsNonContracting := [1]
  lhsBatch := []
  rhsBatch := []
  wf := dot_S50176x1152_S1152x256_S50176x256_1_0_0_1_n_n_wf
def dot_S50176x256_S256x128_S50176x128_1_0_0_1_n_n : DotDims S50176x256 S256x128 S50176x128 where
  lhsContracting := [1]
  rhsContracting := [0]
  lhsNonContracting := [0]
  rhsNonContracting := [1]
  lhsBatch := []
  rhsBatch := []
  wf := dot_S50176x256_S256x128_S50176x128_1_0_0_1_n_n_wf

class Facts : Prop extends Facts₀ where

variable [Facts]
-- ==== Proof.FrameBits.lean ====
/-
  The frame of the kernel program as printed (word level): it runs to the end, faults nowhere, and leaves its
  three arguments unchanged.

  The program builds, on the host, the patch matrix (50176 patches of 576 entries), the two 0/1 inclusion
  masks (576 x 256 each) and the transposed vote matrix (256 x 128); one pipelined region then computes, for
  49 blocks of 1024 patches, the class scores of each patch; three host lines re-lay the scores.  The region's
  body loads its four input blocks whole, computes, and stores one whole output block, so what a grid point
  leaves in the output buffer is one function of the point's input blocks.  Stated for any float instance.
-/
import proofs.«107757_j75084618269072_1_alg».proof.Proof.Gen.Kernel.Launch
import proofs.«107757_j75084618269072_1_alg».proof.Proof.Gen.Kernel.Skeleton
import proofs.«107757_j75084618269072_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines that
    build the patch matrix, the two inclusion masks and the transposed vote matrix. -/
abbrev V0 (c : Dev nD) : Valuation τ sig (Elt F) := StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: three stretches of host lines, the region, one stretch of host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, whether it was fetched at that
    point or is still there from an earlier one (the masks and the vote matrix are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The three argument arrays are no window's array and no host line writes them: a run that leaves every
    bypassing buffer as the lines after the region leave it leaves the arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's accesses: each buffer whole -/

abbrev r0_0 : Rect S1024x576 := Rect.unit (s := S1024x576) ![0, 0] S1024x576.size Facts₀.inb_S1024x576_S1024x576_0_0
abbrev r0_1 : Rect S576x256 := Rect.unit (s := S576x256) ![0, 0] S576x256.size Facts₀.inb_S576x256_S576x256_0_0
abbrev r0_3 : Rect S256x128 := Rect.unit (s := S256x128) ![0, 0] S256x128.size Facts₀.inb_S256x128_S256x128_0_0
abbrev r0_4 : Rect S1024x128 := Rect.unit (s := S1024x128) ![0, 0] S1024x128.size Facts₀.inb_S1024x128_S1024x128_0_0

/-- What the body leaves in the output window's buffer, from the four input blocks: its one store, of the
    class scores of the 1024 patches of the block. -/
def out0_4 (x0 : Vec F S1024x576 .f32) (x1 : Vec F S576x256 .f32) (x2 : Vec F S576x256 .f32) (x3 : Vec F S256x128 .f32) : Vec F S1024x128 .f32 :=
  View.canon [⟨r0_4, k0_pay1 (View.ld x0 r0_0) (View.ld x1 r0_1) (View.ld x2 r0_1) (View.ld x3 r0_3)⟩]

/-- The one store covers the buffer. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-! ## The body's triple -/

set_option maxHeartbeats 1000000 in
/-- The body, on whole staging buffers holding `x0 … x3` and an output buffer holding anything, loads the four
    inputs (and the output buffer, whose value it does not use), stores the scores over the whole output buffer
    and returns; the inputs are as they were. -/
theorem sound_kernel (c : Dev nD) (E : Set ℕ) (i : grid0.Coords)
    (arg1 : Memref sig .tc .vmem S1024x576 .f32) (harg1 : arg1.IsWhole) (arg2 : Memref sig .tc .vmem S576x256 .f32) (harg2 : arg2.IsWhole)
    (arg3 : Memref sig .tc .vmem S576x256 .f32) (harg3 : arg3.IsWhole) (arg4 : Memref sig .tc .vmem S256x128 .f32) (harg4 : arg4.IsWhole)
    (arg5 : Memref sig .tc .vmem S1024x128 .f32) (harg5 : arg5.IsWhole)
    (x0 : Vec F S1024x576 .f32) (x1 : Vec F S576x256 .f32) (x2 : Vec F S576x256 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__tm_kernel i arg1 harg1 arg2 harg2 arg3 harg3 arg4 harg4 arg5 harg5) K := by
  simp only [cc0__tm_kernel_eq_skeleton]; unfold cc0__tm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at point `t` each input buffer still at
    its block and the output buffer at the scores of the point's blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end the output array holds
    what the grid points wrote back, and every buffer the region bypasses holds what the lines after the region
    leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.FrameIdeal.lean ====
/-
  The frame of the idealized kernel program, and its run with the output array named.

  The program builds, on the host, the patch matrix (50176 patches of 576 entries), the two 0/1 inclusion
  masks (576 x 256 each) and the transposed vote matrix (256 x 128); one pipelined region then computes, for
  49 blocks of 1024 patches, the class scores of each patch; three host lines re-lay the scores.  The region's
  body loads its four input blocks whole, computes, and stores one whole output block, so what a grid point
  leaves in the output buffer is one function of the point's input blocks.  Stated for any float instance.
-/
import proofs.«107757_j75084618269072_1_alg».proof.Proof.Gen.KernelIdeal.Launch
import proofs.«107757_j75084618269072_1_alg».proof.Proof.Gen.KernelIdeal.Skeleton
import proofs.«107757_j75084618269072_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the host lines that
    build the patch matrix, the two inclusion masks and the transposed vote matrix. -/
abbrev V0 (c : Dev nD) : Valuation τ sig (Elt F) := StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: three stretches of host lines, the region, one stretch of host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, whether it was fetched at that
    point or is still there from an earlier one (the masks and the vote matrix are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The three argument arrays are no window's array and no host line writes them: a run that leaves every
    bypassing buffer as the lines after the region leave it leaves the arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's accesses: each buffer whole -/

abbrev r0_0 : Rect S1024x576 := Rect.unit (s := S1024x576) ![0, 0] S1024x576.size Facts₀.inb_S1024x576_S1024x576_0_0
abbrev r0_1 : Rect S576x256 := Rect.unit (s := S576x256) ![0, 0] S576x256.size Facts₀.inb_S576x256_S576x256_0_0
abbrev r0_3 : Rect S256x128 := Rect.unit (s := S256x128) ![0, 0] S256x128.size Facts₀.inb_S256x128_S256x128_0_0
abbrev r0_4 : Rect S1024x128 := Rect.unit (s := S1024x128) ![0, 0] S1024x128.size Facts₀.inb_S1024x128_S1024x128_0_0

/-- What the body leaves in the output window's buffer, from the four input blocks: its one store, of the
    class scores of the 1024 patches of the block. -/
def out0_4 (x0 : Vec F S1024x576 .f32) (x1 : Vec F S576x256 .f32) (x2 : Vec F S576x256 .f32) (x3 : Vec F S256x128 .f32) : Vec F S1024x128 .f32 :=
  View.canon [⟨r0_4, k0_pay1 (View.ld x0 r0_0) (View.ld x1 r0_1) (View.ld x2 r0_1) (View.ld x3 r0_3)⟩]

/-- The one store covers the buffer. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-! ## The body's triple -/

set_option maxHeartbeats 1000000 in
/-- The body, on whole staging buffers holding `x0 … x3` and an output buffer holding anything, loads the four
    inputs (and the output buffer, whose value it does not use), stores the scores over the whole output buffer
    and returns; the inputs are as they were. -/
theorem sound_kernel (c : Dev nD) (E : Set ℕ) (i : grid0.Coords)
    (arg1 : Memref sig .tc .vmem S1024x576 .f32) (harg1 : arg1.IsWhole) (arg2 : Memref sig .tc .vmem S576x256 .f32) (harg2 : arg2.IsWhole)
    (arg3 : Memref sig .tc .vmem S576x256 .f32) (harg3 : arg3.IsWhole) (arg4 : Memref sig .tc .vmem S256x128 .f32) (harg4 : arg4.IsWhole)
    (arg5 : Memref sig .tc .vmem S1024x128 .f32) (harg5 : arg5.IsWhole)
    (x0 : Vec F S1024x576 .f32) (x1 : Vec F S576x256 .f32) (x2 : Vec F S576x256 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__tm_kernel i arg1 harg1 arg2 harg2 arg3 harg3 arg4 harg4 arg5 harg5) K := by
  simp only [cc0__tm_kernel_eq_skeleton]; unfold cc0__tm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at point `t` each input buffer still at
    its block and the output buffer at the scores of the point's blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end the output array holds
    what the grid points wrote back, and every buffer the region bypasses holds what the lines after the region
    leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frm

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Core.lean ====
/-
  The score of one patch for one class, as a function of the patch's 576 entries.

  A clause `c` is the product, over the entries `k` it includes positively, of `row k + ε`, times the product,
  over the entries it includes negatively, of `(1 - row k) + ε`; computed in the log domain it is
  `exp (∑ k, log (row k + ε) · pos k c + ∑ k, log ((1 - row k) + ε) · neg k c)` with 0/1 masks `pos`, `neg`.
  The score is the clauses' vote: `∑ c, clause c · vt c`.  Everything is read on the extended reals.
-/
import Idealize.ShloMosaic.PureOps.Ideal

noncomputable section

namespace TmCore

open Idealize.ShloMosaic

/-- The guard added to a literal before its logarithm (the single-precision word nearest to 1e-6). -/
abbrev eps : EReal := Ideal.ofBits .f32 0x358637BD#32
/-- The single-precision word of 1. -/
abbrev one : EReal := Ideal.ofBits .f32 0x3F800000#32

/-- The vote of the 256 clauses on one patch (`row`), for one class (`vt`). -/
def score (row : Fin 576 → EReal) (pos neg : Fin 576 → Fin 256 → EReal) (vt : Fin 256 → EReal) : EReal :=
  ∑ c : Fin 256, Ideal.exp ((∑ k : Fin 576, Ideal.log (row k + eps) * pos k c)
      + ∑ k : Fin 576, Ideal.log ((one - row k) + eps) * neg k c) * vt c

end TmCore

end
-- ==== Proof.Payload.lean ====
/-
  The body's stored value, entry by entry.

  The body forms the logarithms of the block's literals and of their complements, multiplies each by its
  0/1 mask (two matrix products into a zero accumulator, added), exponentiates, and multiplies by the
  transposed vote matrix.  A matrix product into zero, read at an entry, is the plain sum over the contracted
  axis, so entry `(r, j)` of the stored block is the score of the block's row `r` for class `j`.
-/
import proofs.«107757_j75084618269072_1_alg».proof.Proof.Gen.KernelIdeal.Skeleton
import proofs.«107757_j75084618269072_1_alg».proof.Proof.LibPlainMatmul
import proofs.«107757_j75084618269072_1_alg».proof.Proof.Core
import Idealize.ShloMosaic.Lib.ValueIdx
import Idealize.ShloMosaic.Lib.Pipeline.Value

noncomputable section

namespace Cert.KernelIdeal.KVal

open Cert.KernelIdeal Cert.KernelIdeal.Gen Idealize.ShloMosaic Idealize.ShloMosaic.ValueIdx

theorem pay_apply (x0 : Vec Ideal S1024x576 .f32) (x1 x2 : Vec Ideal S576x256 .f32) (x3 : Vec Ideal S256x128 .f32)
    (r : Fin 1024) (j : Fin 128) :
    k0_pay1 (F := Ideal) x0 x1 x2 x3 (ix2 r j)
      = TmCore.score (fun k => x0 (ix2 r k)) (fun k c => x1 (ix2 k c)) (fun k c => x2 (ix2 k c)) (fun c => x3 (ix2 c j)) := by
  unfold k0_pay1
  simp only [shapeCast_self]
  refine (Cert.LibPlainMatmul.matmul_zero_apply dot_S1024x256_S256x128_S1024x128_1_0_0_1_n_n rfl rfl rfl rfl rfl rfl
    (some .fp32) _ x3 r j).trans ?_
  unfold TmCore.score
  refine Finset.sum_congr rfl fun c _ => ?_
  refine congrArg (· * x3 (ix2 c j)) ?_
  show Ideal.exp (_ + _) = Ideal.exp (_ + _)
  refine congrArg Ideal.exp ?_
  refine congrArg₂ (· + ·) ?_ ?_
  · refine (Cert.LibPlainMatmul.matmul_zero_apply dot_S1024x576_S576x256_S1024x256_1_0_0_1_n_n rfl rfl rfl rfl rfl rfl
      (some .fp32) _ x1 r c).trans ?_
    rfl
  · refine (Cert.LibPlainMatmul.matmul_zero_apply dot_S1024x576_S576x256_S1024x256_1_0_0_1_n_n rfl rfl rfl rfl rfl rfl
      (some .fp32) _ x2 r c).trans ?_
    rfl

end Cert.KernelIdeal.KVal

end
-- ==== Proof.KernelValue.lean ====
/-
  The output array of the idealized kernel program after its run, as one function of the region's four input arrays.

  Grid point `t` stages rows `1024·t … 1024·t + 1023` of the patch matrix, the whole of the two masks and of the
  transposed vote matrix, and writes back rows `1024·t … 1024·t + 1023` of the score matrix.  The 49 blocks
  tile the 50176 rows, so the score matrix ends holding, at `(n, j)`, the score of patch `n` for class `j`.
-/
import proofs.«107757_j75084618269072_1_alg».proof.Proof.FrameIdeal
import proofs.«107757_j75084618269072_1_alg».proof.Proof.Payload
import Idealize.ShloMosaic.Lib.Pipeline.Value

noncomputable section

namespace Cert.KernelIdeal.KVal

open Cert.KernelIdeal Cert.KernelIdeal.Gen Cert.KernelIdeal.Frm
open Cert.KernelIdeal.Facts₀ Cert.KernelIdeal.Facts
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The score matrix as a function of the patch matrix `a0`, the masks `a1`, `a2` and the transposed votes `a3`. -/
def G (a0 : S50176x576.Idx → EReal) (a1 a2 : S576x256.Idx → EReal) (a3 : S256x128.Idx → EReal) : S50176x128.Idx → EReal :=
  fun i => TmCore.score (fun k => a0 (ix2 (⟨(i 0).val, idx2_lt0 i⟩ : Fin 50176) k)) (fun k c => a1 (ix2 k c)) (fun k c => a2 (ix2 k c))
    (fun c => a3 (ix2 c (⟨(i 1).val, idx2_lt1 i⟩ : Fin 128)))

/-- A stored block entry is the score matrix's entry, once the block's inputs are the arrays' entries. -/
theorem pay_G (x0 : Vec Ideal S1024x576 .f32) (x1 x2 : Vec Ideal S576x256 .f32) (x3 : Vec Ideal S256x128 .f32)
    (a0 : S50176x576.Idx → EReal) (a1 a2 : S576x256.Idx → EReal) (a3 : S256x128.Idx → EReal)
    (y : S1024x128.Idx) (i : S50176x128.Idx)
    (h0 : ∀ k : Fin 576, x0 (ix2 (⟨(y 0).val, idx2_lt0 y⟩ : Fin 1024) k) = a0 (ix2 (⟨(i 0).val, idx2_lt0 i⟩ : Fin 50176) k))
    (h1 : ∀ (k : Fin 576) (c : Fin 256), x1 (ix2 k c) = a1 (ix2 k c))
    (h2 : ∀ (k : Fin 576) (c : Fin 256), x2 (ix2 k c) = a2 (ix2 k c))
    (h3 : ∀ c : Fin 256, x3 (ix2 c (⟨(y 1).val, idx2_lt1 y⟩ : Fin 128)) = a3 (ix2 c (⟨(i 1).val, idx2_lt1 i⟩ : Fin 128))) :
    k0_pay1 (F := Ideal) x0 x1 x2 x3 y = G a0 a1 a2 a3 i := by
  have hy : y = ix2 (⟨(y 0).val, idx2_lt0 y⟩ : Fin 1024) (⟨(y 1).val, idx2_lt1 y⟩ : Fin 128) := by
    funext a; match a with | ⟨0, _⟩ => rfl | ⟨1, _⟩ => rfl
  rw [hy]
  refine (pay_apply x0 x1 x2 x3 _ _).trans ?_
  unfold G
  simp only [h0, h1, h2, h3]

/-- The index maps over the grid: windows 0 and 4 move down one block of rows per point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of what a point stores, for ANY contents of the four input arrays: the stored block's entry `y`
    is the score matrix's entry at `y`'s place in the array. -/
theorem block_pay (t : Fin cfg0.N) (A0 : S50176x576.Idx → EReal) (A1 A2 : S576x256.Idx → EReal) (A3 : S256x128.Idx → EReal)
    (y : S1024x128.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) y
      = G A0 A1 A2 A3 (((cfg0.win 4).blk t).view.emb y) := by
  obtain ⟨e00, e01, e10, e11, e20, e21, e30, e31, e40, e41⟩ := idx_facts t
  refine pay_G _ _ _ _ A0 A1 A2 A3 y _ ?_ ?_ ?_ ?_
  · intro k
    show A0 (((cfg0.win 0).blk t).view.emb _) = A0 _
    refine congrArg A0 (funext fun a => Fin.ext ?_)
    match a with
    | ⟨0, _⟩ =>
      show win0_0.index t (0 : Fin 2) * 1024 + 1 * (y 0).val = win0_4.index t (0 : Fin 2) * 1024 + 1 * (y 0).val
      omega
    | ⟨1, _⟩ =>
      show win0_0.index t (1 : Fin 2) * 576 + 1 * k.val = k.val
      omega
  · intro k c'
    show A1 (((cfg0.win 1).blk t).view.emb _) = A1 _
    refine congrArg A1 (funext fun a => Fin.ext ?_)
    match a with
    | ⟨0, _⟩ => show win0_1.index t (0 : Fin 2) * 576 + 1 * k.val = k.val; omega
    | ⟨1, _⟩ => show win0_1.index t (1 : Fin 2) * 256 + 1 * c'.val = c'.val; omega
  · intro k c'
    show A2 (((cfg0.win 2).blk t).view.emb _) = A2 _
    refine congrArg A2 (funext fun a => Fin.ext ?_)
    match a with
    | ⟨0, _⟩ => show win0_2.index t (0 : Fin 2) * 576 + 1 * k.val = k.val; omega
    | ⟨1, _⟩ => show win0_2.index t (1 : Fin 2) * 256 + 1 * c'.val = c'.val; omega
  · intro c'
    show A3 (((cfg0.win 3).blk t).view.emb _) = A3 _
    refine congrArg A3 (funext fun a => Fin.ext ?_)
    match a with
    | ⟨0, _⟩ => show win0_3.index t (0 : Fin 2) * 256 + 1 * c'.val = c'.val; omega
    | ⟨1, _⟩ =>
      show win0_3.index t (1 : Fin 2) * 128 + 1 * (y 1).val = win0_4.index t (1 : Fin 2) * 128 + 1 * (y 1).val
      omega

/-- What point `t` writes back is block `t` of the score matrix of the arrays as the region finds them. -/
theorem flushed_eq (c : Dev nD) (t : Fin cfg0.N) :
    (dats m 0 c).flushed 4 t = ((cfg0.win 4).blk t).view.read (Elt Ideal)
      (G (V m c (Pipeline.arrRef spec0 0)) (V m c (Pipeline.arrRef spec0 1)) (V m c (Pipeline.arrRef spec0 2)) (V m c (Pipeline.arrRef spec0 3))) := by
  show (cfg0.win 4).cut (grid0.coords t) ((dats m 0 c).after 4 t) = _
  rw [after0_4]
  unfold out0_4
  rw [View.canon_unit_zero hz]
  simp only [View.ld_unit_zero (S := S1024x576) hz, View.ld_unit_zero (S := S576x256) hz, View.ld_unit_zero (S := S256x128) hz]
  unfold iblk
  generalize V m c (Pipeline.arrRef spec0 0) = A0
  generalize V m c (Pipeline.arrRef spec0 1) = A1
  generalize V m c (Pipeline.arrRef spec0 2) = A2
  generalize V m c (Pipeline.arrRef spec0 3) = A3
  generalize hP : k0_pay1 (F := Ideal) _ _ _ _ = P
  have key : ∀ y : S1024x128.Idx, P y = G A0 A1 A2 A3 (((cfg0.win 4).blk t).view.emb y) := by
    intro y; rw [← hP]; exact block_pay t A0 A1 A2 A3 y
  clear hP
  generalize G A0 A1 A2 A3 = Q at key ⊢
  funext y
  have h2 : ((cfg0.win 4).blk t).view.read (Elt Ideal) Q y = Q (((cfg0.win 4).blk t).view.emb y) :=
    (View.read_apply _ _).trans (cast_eq _ _)
  exact (key y).trans h2.symm

/-- An index of the score matrix is in point `t`'s block iff each coordinate is in the block's range. -/
theorem mem_blk (t : Fin cfg0.N) (i : S50176x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v37).slice (win0_4.rect t)).set ↔ _
  rw [View.set_slice_whole, Rect.mem_set_unit]
  exact Iff.rfl

/-- Every row of the score matrix lies in the block of the point `row / 1024`. -/
theorem cover (i : S50176x128.Idx) : ∃ t : Fin cfg0.N, (cfg0.win 4).flush t = true ∧ i ∈ ((cfg0.win 4).blk t).view.set := by
  have hi0 : (i 0).val < 50176 := idx2_lt0 i
  have hi1 : (i 1).val < 128 := idx2_lt1 i
  have hN : cfg0.N = 49 := N_0
  let t : Fin cfg0.N := ⟨(i 0).val / 1024, by rw [hN]; omega⟩
  have ht : t.val = (i 0).val / 1024 := rfl
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- The score matrix after the run. -/
theorem final (c : Dev nD) : (dats m 0 c).arrAt 4 cfg0.N
    = G (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) cover

end Cert.KernelIdeal.KVal

end
-- ==== Proof.LibNary9.lean ====
/-
  A host operation of nine operands, read at its own result.

  A nine-operand operation (a concatenation of nine arrays) computes its result from the family of its
  operands' contents.  Stated with the family spelt out operand by operand — the contents of the first
  operand, of the second, … — rather than as "the contents at the `k`-th reference", each operand's contents
  stands at its own reference, where the operations that produced it can be read in turn.
-/
import Idealize.ShloMosaic.Lib.StableHlo.Run

noncomputable section

namespace Cert.LibNary9

open Idealize.ShloMosaic Idealize.ShloMosaic.StableHlo Idealize.SL.Sem

variable {τ : Topo} {sig : RefSig} {Val : EltTy → Type}
variable {x0 x1 x2 x3 x4 x5 x6 x7 x8 y : Ref sig .tc}

/-- The result of a nine-operand operation at its result buffer: its function of the nine operands' contents, each
    read at its own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

/-- The same, keyed for one simplification pass over a list of operations. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

end Cert.LibNary9

open Idealize.ShloMosaic.StableHlo in
/-- Reads one buffer after a literal list of host operations that contains a nine-operand operation: one
    simplification pass over the operations outside the nine-operand one's operand list, then, inside that list (a
    position the pass does not enter), each remaining operation's result rewritten in turn. -/
macro "after_results_nine" : tactic =>
  `(tactic| (
      simp (disch := decide) only [after_cons, after_nil,
        nullary_result', unary_result', binary_result', ternary_result', quaternary_result', reshape_result', nary4_result',
        Cert.LibNary9.nary9_result', unaryIndexed_result', binaryIndexed_result',
        nullary_result_ne', unary_result_ne', binary_result_ne', ternary_result_ne', quaternary_result_ne', reshape_result_ne',
        nary_result_ne', unaryIndexed_result_ne', binaryIndexed_result_ne']
      repeat (first
        | rw [nullary_result] | rw [unary_result] | rw [binary_result] | rw [ternary_result] | rw [quaternary_result]
        | rw [reshape_result]
        | (rw [nullary_result_ne]; rotate_left; decide)
        | (rw [unary_result_ne]; rotate_left; decide)
        | (rw [binary_result_ne]; rotate_left; decide)
        | (rw [ternary_result_ne]; rotate_left; decide)
        | (rw [quaternary_result_ne]; rotate_left; decide)
        | (rw [reshape_result_ne]; rotate_left; decide)
        | (rw [nary_result_ne]; rotate_left; decide))))

end
-- ==== Proof.Spec.lean ====
/-
  The two halves of the literal axis.  A clause of the fuzzy conjunction reads 1152 literals per patch:
  the 576 patch entries themselves (columns 0 … 575) and their complements (columns 576 … 1151).
  `lo k` and `hi k` name the column of entry `k` in each half.
-/
import Mathlib.Data.Fin.Basic

namespace TmSpec

/-- Column of the `k`-th patch entry among the 1152 literals (first half). -/
def lo (k : Fin 576) : Fin 1152 := ⟨k.val, by have := k.isLt; omega⟩

/-- Column of the complement of the `k`-th patch entry among the 1152 literals (second half). -/
def hi (k : Fin 576) : Fin 1152 := ⟨576 + k.val, by have := k.isLt; omega⟩

@[simp] theorem lo_val (k : Fin 576) : (lo k).val = k.val := rfl
@[simp] theorem hi_val (k : Fin 576) : (hi k).val = 576 + k.val := rfl

end TmSpec
-- ==== Proof.HostValues.lean ====
/-
  What the region finds in its four input arrays, as functions of the program's arguments, and the host lines
  after the region as one re-laying of the score matrix.

  The patch matrix is the reference's own patch matrix (the two programs build it by the same host lines);
  the two masks are the transposed left and right halves of the 0/1 inclusion matrix `hard`; the vote matrix is
  transposed.  Read at an entry: mask `pos (k, c) = hard (c, k)`, mask `neg (k, c) = hard (c, 576 + k)`,
  `voteᵀ (c, j) = vote (j, c)`.
-/
import proofs.«107757_j75084618269072_1_alg».proof.Proof.FrameIdeal
import proofs.«107757_j75084618269072_1_alg».proof.Proof.ReadP
import proofs.«107757_j75084618269072_1_alg».proof.Proof.LibNary9
import proofs.«107757_j75084618269072_1_alg».proof.Proof.Spec
import Idealize.ShloMosaic.Lib.ValueIdx
import Idealize.ShloMosaic.Lib.Pipeline.Value

noncomputable section

namespace Cert.KernelIdeal.KVal

open Cert.KernelIdeal Cert.KernelIdeal.Gen Cert.KernelIdeal.Frm
open Cert.KernelIdeal.Facts₀ Cert.KernelIdeal.Facts
open Idealize.ShloMosaic Idealize.ShloMosaic.TcCoe Idealize.ShloMosaic.ValueIdx Idealize.ShloMosaic.StableHlo
open Idealize.SL Idealize.SL.Sem
open TmSpec

variable (m : (ℓ : Loc nD τ sig) → Buf (Elt Ideal) ℓ)

/-! ## The host lines after the region -/

/-- The re-laying of the score matrix `[50176, 128]` as `[16, 128, 56, 56]`: split the patches by image, move
    the classes in front of the positions, split the positions in rows and columns. -/
def tail (K : S50176x128.Idx → EReal) : S16x128x56x56.Idx → EReal :=
  shapeCast S16x128x56x56 (transpose S16x128x3136 [0, 2, 1] (shapeCast S16x3136x128 K Facts₀.shapeCasts_S50176x128_S16x3136x128)
    Facts₀.transposes_S16x3136x128_S16x128x3136_0_2_1) Facts₀.shapeCasts_S16x128x3136_S16x128x56x56

/-- The reference's result is the same re-laying of its own score matrix. -/
theorem ref_tail (x0 : FVec Ideal S16x64x56x56 .f32) (x1 : FVec Ideal S256x1152 .f32) (x2 : FVec Ideal S128x256 .f32) :
    Cert.ReferenceIdeal.ReadP.val_main_v47 (F := Ideal) x0 x1 x2 = tail (Cert.ReferenceIdeal.ReadP.val_main_v44 (F := Ideal) x0 x1 x2) := rfl

/-! ## The region's input arrays -/

set_option maxHeartbeats 8000000 in
/-- The patch matrix the region stages is the reference's patch matrix of the same image batch. -/
theorem patches_eq (c : Dev nD) :
    V m c (Pipeline.arrRef spec0 0) = Cert.ReferenceIdeal.ReadP.val_main_v22 (F := Ideal) (m ((c.tc : Thread nD τ).loc main_arg0)) := by
  show StableHlo.after (List.flatten [hostOps0, hostOps0_1, hostOps0_2]) (fun b => m (c, b)) (Proc.devRef .tc main_v22) = _
  simp only [hostOps0, hostOps0_1, hostOps0_2, List.flatten_cons, List.flatten_nil, List.append_nil, List.cons_append, List.nil_append]
  after_results_nine
  all_goals rfl

/-- The mask of the positive literals: the transposed left half of the 0/1 inclusion matrix. -/
theorem pos_eq (c : Dev nD) :
    V m c (Pipeline.arrRef spec0 1) = transpose S576x256 [1, 0] (extractStridedSlice S256x576 ![0, 0]
      (Cert.ReferenceIdeal.ReadP.val_main_v34 (F := Ideal) (m ((c.tc : Thread nD τ).loc main_arg1))) Facts₀.slices_S256x1152_S256x576_0_0)
      Facts₀.transposes_S256x576_S576x256_1_0 := by
  show StableHlo.after (List.flatten [hostOps0, hostOps0_1, hostOps0_2]) (fun b => m (c, b)) (Proc.devRef .tc main_v33) = _
  simp only [hostOps0, hostOps0_1, hostOps0_2, List.flatten_cons, List.flatten_nil, List.append_nil, List.cons_append, List.nil_append]
  after_results_nine
  all_goals rfl

/-- The mask of the negated literals: the transposed right half of the 0/1 inclusion matrix. -/
theorem neg_eq (c : Dev nD) :
    V m c (Pipeline.arrRef spec0 2) = transpose S576x256 [1, 0] (extractStridedSlice S256x576 ![0, 576]
      (Cert.ReferenceIdeal.ReadP.val_main_v34 (F := Ideal) (m ((c.tc : Thread nD τ).loc main_arg1))) Facts₀.slices_S256x1152_S256x576_0_576)
      Facts₀.transposes_S256x576_S576x256_1_0 := by
  show StableHlo.after (List.flatten [hostOps0, hostOps0_1, hostOps0_2]) (fun b => m (c, b)) (Proc.devRef .tc main_v35) = _
  simp only [hostOps0, hostOps0_1, hostOps0_2, List.flatten_cons, List.flatten_nil, List.append_nil, List.cons_append, List.nil_append]
  after_results_nine
  all_goals rfl

/-- The transposed vote matrix. -/
theorem votes_eq (c : Dev nD) :
    V m c (Pipeline.arrRef spec0 3) = transpose S256x128 [1, 0] (m ((c.tc : Thread nD τ).loc main_arg2)) Facts₀.transposes_S128x256_S256x128_1_0 := by
  show StableHlo.after (List.flatten [hostOps0, hostOps0_1, hostOps0_2]) (fun b => m (c, b)) (Proc.devRef .tc main_v36) = _
  simp only [hostOps0, hostOps0_1, hostOps0_2, List.flatten_cons, List.flatten_nil, List.append_nil, List.cons_append, List.nil_append]
  after_results_nine
  all_goals rfl

/-! ## The masks and the votes at an entry -/

theorem pos_apply (x : S256x1152.Idx → EReal) (k : Fin 576) (c' : Fin 256) :
    transpose S576x256 [1, 0] (extractStridedSlice S256x576 ![0, 0] x Facts₀.slices_S256x1152_S256x576_0_0)
      Facts₀.transposes_S256x576_S576x256_1_0 (ix2 k c') = x (ix2 c' (lo k)) := by
  generalize hy : extractStridedSlice S256x576 ![0, 0] x Facts₀.slices_S256x1152_S256x576_0_0 = y
  refine (transpose_apply [1, 0] y Facts₀.transposes_S256x576_S576x256_1_0 (ix2 k c') (ix2 c' k) (fun b => match b with
    | ⟨0, _⟩ => rfl
    | ⟨1, _⟩ => rfl)).trans ?_
  rw [← hy]
  exact extractStridedSlice_apply ![0, 0] x Facts₀.slices_S256x1152_S256x576_0_0 (ix2 c' k) (ix2 c' (lo k)) (fun a => match a with
    | ⟨0, _⟩ => by show c'.val = 0 + c'.val; omega
    | ⟨1, _⟩ => by show k.val = 0 + k.val; omega)

theorem neg_apply (x : S256x1152.Idx → EReal) (k : Fin 576) (c' : Fin 256) :
    transpose S576x256 [1, 0] (extractStridedSlice S256x576 ![0, 576] x Facts₀.slices_S256x1152_S256x576_0_576)
      Facts₀.transposes_S256x576_S576x256_1_0 (ix2 k c') = x (ix2 c' (hi k)) := by
  generalize hy : extractStridedSlice S256x576 ![0, 576] x Facts₀.slices_S256x1152_S256x576_0_576 = y
  refine (transpose_apply [1, 0] y Facts₀.transposes_S256x576_S576x256_1_0 (ix2 k c') (ix2 c' k) (fun b => match b with
    | ⟨0, _⟩ => rfl
    | ⟨1, _⟩ => rfl)).trans ?_
  rw [← hy]
  exact extractStridedSlice_apply ![0, 576] x Facts₀.slices_S256x1152_S256x576_0_576 (ix2 c' k) (ix2 c' (hi k)) (fun a => match a with
    | ⟨0, _⟩ => by show c'.val = 0 + c'.val; omega
    | ⟨1, _⟩ => by show 576 + k.val = 576 + k.val; rfl)

theorem votes_apply (x : S128x256.Idx → EReal) (c' : Fin 256) (j : Fin 128) :
    transpose S256x128 [1, 0] x Facts₀.transposes_S128x256_S256x128_1_0 (ix2 c' j) = x (ix2 j c') :=
  transpose_apply [1, 0] x Facts₀.transposes_S128x256_S256x128_1_0 (ix2 c' j) (ix2 j c') (fun b => match b with
    | ⟨0, _⟩ => rfl
    | ⟨1, _⟩ => rfl)

end Cert.KernelIdeal.KVal

end
-- ==== Proof.LibSideBySide.lean ====
/-
  Two matrices side by side, column ranges of a matrix, and a vector as a one-row matrix, read at coordinates.

  Concatenating a `[K, a]` and a `[K, b]` matrix along the second axis gives a `[K, n]` matrix whose column `j' < a`
  is column `j'` of the first and whose column `a + j` is column `j` of the second. Cutting columns `o … o + w - 1`
  out of an `[M, n]` matrix reads, at `(r, k)`, the matrix at `(r, o + k)`. A length-`n` vector recast as a
  `[1, n]` matrix reads, at `(0, k)`, the vector at `k`. So a product with two weight matrices side by side, cut
  back into its two column halves, is the two products. Every extent and the element type are variables.
-/
import Idealize.ShloMosaic.Lib.Pipeline.Value
import Idealize.ShloMosaic.Lib.ValueIdx

noncomputable section

namespace Cert.LibSideBySide

open Idealize.ShloMosaic Idealize.ShloMosaic.ValueIdx

/-- A column of the left matrix. -/
theorem side_left {α : Type} {K a b n : ℕ} (x₁ : (⟨2, ![K, a]⟩ : Shape).Idx → α) (x₂ : (⟨2, ![K, b]⟩ : Shape).Idx → α)
    (h : Shape.Concatenates [(⟨2, ![K, a]⟩ : Shape), ⟨2, ![K, b]⟩] ⟨2, ![K, n]⟩ (1 : Fin 2)) (k : Fin K) (j : Fin a) (j' : Fin n)
    (hj : j'.val = j.val) :
    concatenate ⟨2, ![K, n]⟩ 1 [⟨⟨2, ![K, a]⟩, x₁⟩, ⟨⟨2, ![K, b]⟩, x₂⟩] h (ix2 k j') = x₁ (ix2 k j) :=
  concatenate_pair_apply_left 1 x₁ x₂ h (ix2 k j') rfl (ix2 k j)
    (fun c => by match c with | ⟨0, _⟩ => rfl | ⟨1, _⟩ => exact hj.symm)

/-- A column of the right matrix. -/
theorem side_right {α : Type} {K a b n : ℕ} (x₁ : (⟨2, ![K, a]⟩ : Shape).Idx → α) (x₂ : (⟨2, ![K, b]⟩ : Shape).Idx → α)
    (h : Shape.Concatenates [(⟨2, ![K, a]⟩ : Shape), ⟨2, ![K, b]⟩] ⟨2, ![K, n]⟩ (1 : Fin 2)) (k : Fin K) (j : Fin b) (j' : Fin n)
    (hj : j'.val = a + j.val) :
    concatenate ⟨2, ![K, n]⟩ 1 [⟨⟨2, ![K, a]⟩, x₁⟩, ⟨⟨2, ![K, b]⟩, x₂⟩] h (ix2 k j') = x₂ (ix2 k j) :=
  concatenate_pair_apply_right 1 x₁ x₂ h (ix2 k j') rfl rfl (ix2 k j)
    (fun c hc => by match c with | ⟨0, _⟩ => rfl | ⟨1, _⟩ => exact absurd rfl hc)
    (by show j.val + a = j'.val; omega)

/-- Columns `o, …, o + w - 1` of a matrix, read at `(r, k)`. -/
theorem cols_at {α : Type} {M n w : ℕ} (o : ℕ) (x : (⟨2, ![M, n]⟩ : Shape).Idx → α)
    (h : (⟨2, ![M, n]⟩ : Shape).Slices ![0, o] ⟨2, ![M, w]⟩) (r : Fin M) (k : Fin w) (k' : Fin n) (hk : k'.val = o + k.val) :
    extractStridedSlice ⟨2, ![M, w]⟩ ![0, o] x h (ix2 r k) = x (ix2 r k') :=
  extractStridedSlice_apply ![0, o] x h (ix2 r k) (ix2 r k') (fun c => by
    match c with
    | ⟨0, _⟩ => show r.val = 0 + r.val; omega
    | ⟨1, _⟩ => exact hk)

/-- A vector recast as a one-row matrix, read at `(0, k)`. -/
theorem row_at {α : Type} {n : ℕ} (v : (⟨1, ![n]⟩ : Shape).Idx → α) (h : (⟨1, ![n]⟩ : Shape).ShapeCasts ⟨2, ![1, n]⟩) (k : Fin n) :
    shapeCast ⟨2, ![1, n]⟩ v h (ix2 0 k) = v (ix1 k) :=
  shapeCast_apply v h (ix2 0 k) (ix1 k) (by
    rw [Shape.rowMajor_val_one, Shape.rowMajor_val_two]; show k.val = 0 * n + k.val; omega)

end Cert.LibSideBySide

end
-- ==== Proof.LibIdealReal.lean ====
/-
  Real numbers inside the extended reals: the float pattern of one, the quotient of two reals by the
  extended-real division, and arrays of reals read as arrays of extended reals by coordinates.
-/
import Idealize.ShloMosaic.PureOps.Ideal.Laws
import Idealize.ShloMosaic.Lib.ValueIdx

noncomputable section

open Idealize.ShloMosaic Idealize.ShloMosaic.ValueIdx

namespace Cert.IdealReal

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A matrix of reals as an array of extended reals. -/
def lift2 {n0 n1 : Nat} (f : Fin n0 → Fin n1 → ℝ) : (⟨2, ![n0, n1]⟩ : Shape).Idx → EReal :=
  fun i => ((f (i 0) (i 1) : ℝ) : EReal)

theorem lift2_ix2 {n0 n1 : Nat} (f : Fin n0 → Fin n1 → ℝ) (a : Fin n0) (b : Fin n1) :
    lift2 f (ix2 a b) = ((f a b : ℝ) : EReal) := rfl

/-- An array all of whose entries are given reals is the lifted matrix. -/
theorem eq_lift2 {n0 n1 : Nat} (v : (⟨2, ![n0, n1]⟩ : Shape).Idx → EReal) (f : Fin n0 → Fin n1 → ℝ)
    (h : ∀ a b, v (ix2 a b) = ((f a b : ℝ) : EReal)) : v = lift2 f := by
  funext i
  rw [eq_ix2 i]
  exact h _ _

end Cert.IdealReal

end
-- ==== Proof.RefCore.lean ====
/-
  The reference's logits at one patch row and one class, as a formula in the im2col matrix, the weights and
  the votes. The include mask is soft + (hard - soft) with soft = 1 / (1 + exp (-w)); for a real weight soft is
  a real number, so the mask is exactly hard, a 0/1 value. The 1152 literals of a patch row are the 576 patch
  entries followed by their 576 complements; the clause exponent, a sum over all literals, is the sum over the
  first half plus the sum over the second half.
-/
import proofs.«107757_j75084618269072_1_alg».proof.Proof.ReadP
import proofs.«107757_j75084618269072_1_alg».proof.Proof.Spec
import proofs.«107757_j75084618269072_1_alg».proof.Proof.LibSideBySide
import proofs.«107757_j75084618269072_1_alg».proof.Proof.LibIdealReal
import Idealize.ShloMosaic.Lib.ValueIdx
import Idealize.ShloMosaic.PureOps.Ideal.Laws
import Mathlib.Algebra.BigOperators.Fin

noncomputable section

open scoped BigOperators

namespace Cert.ReferenceIdeal.RefValue

open Cert.ReferenceIdeal Cert.ReferenceIdeal.ReadP Idealize.ShloMosaic Idealize.ShloMosaic.ValueIdx TmSpec

/-! ## The include mask -/

/-- For a real weight, soft = 1 / (1 + exp (-w)) is a real number. -/
theorem soft_real (x1 : FVec Ideal S256x1152 .f32) (i : S256x1152.Idx) (r : ℝ) (hr : x1 i = (r : EReal)) :
    val_main_v31 (F := Ideal) x1 i = (((1 : ℝ) / (1 + Real.exp (-r)) : ℝ) : EReal) := by
  have hpos : (1 + Real.exp (-r) : ℝ) ≠ 0 := by positivity
  rw [val_main_v31_apply, val_main_v30_apply, val_main_cst_1_apply, val_main_v29_apply, val_main_v28_apply,
    val_main_cst_0_apply, val_main_v27_apply, val_main_v26_apply, hr]
  simp only [Ideal.hostDivf_def, Ideal.addf_def, Ideal.hostUnary_exp_def, Ideal.hostNegf_def, Ideal.negf_def,
    Ideal.ofBits_def, Cert.IdealReal.ofBits_one_f32]
  rw [← EReal.coe_neg, Ideal.exp_coe, ← EReal.coe_one, ← EReal.coe_add, Cert.IdealReal.div_coe_coe hpos]

/-- hard, the 0/1 value of a comparison bit, is a real number. -/
theorem hard_real (x1 : FVec Ideal S256x1152 .f32) (i : S256x1152.Idx) :
    val_main_v34 (F := Ideal) x1 i = ((((val_main_v33 (F := Ideal) x1 i).toNat : ℝ)) : EReal) := rfl

/-- For real weights the include mask soft + (hard - soft) is hard. -/
theorem include_eq_hard (x1 : FVec Ideal S256x1152 .f32) (hx1 : ∀ i : S256x1152.Idx, ∃ r : ℝ, x1 i = (r : EReal))
    (i : S256x1152.Idx) : val_main_v36 (F := Ideal) x1 i = val_main_v34 (F := Ideal) x1 i := by
  obtain ⟨r, hr⟩ := hx1 i
  rw [val_main_v36_apply, val_main_v35_apply, hard_real, soft_real x1 i r hr]
  simp only [Ideal.addf_def, Ideal.subf_def]
  rw [← EReal.coe_sub, ← EReal.coe_add]
  congr 1
  ring

/-! ## The literals -/

/-- The first 576 literals of a patch row are the patch entries. -/
theorem literal_lo (x0 : FVec Ideal S16x64x56x56 .f32) (n : Fin 50176) (k : Fin 576) :
    val_main_v25 (F := Ideal) x0 (ix2 n (lo k)) = val_main_v22 (F := Ideal) x0 (ix2 n k) := by
  unfold val_main_v25
  exact Cert.LibSideBySide.side_left _ _ _ n k (lo k) rfl

/-- The last 576 literals of a patch row are the complements of the patch entries. -/
theorem literal_hi (x0 : FVec Ideal S16x64x56x56 .f32) (n : Fin 50176) (k : Fin 576) :
    val_main_v25 (F := Ideal) x0 (ix2 n (hi k))
      = Ideal.ofBits .f32 0x3F800000#32 - val_main_v22 (F := Ideal) x0 (ix2 n k) := by
  unfold val_main_v25
  rw [Cert.LibSideBySide.side_right _ _ _ n k (hi k) rfl, val_main_v24_apply, val_main_v23_apply, val_main_cst_apply]
  rfl

/-- The logarithm of a literal plus the guard constant. -/
theorem log_literal (x0 : FVec Ideal S16x64x56x56 .f32) (n : Fin 50176) (m : Fin 1152) :
    val_main_v39 (F := Ideal) x0 (ix2 n m)
      = Ideal.log (val_main_v25 (F := Ideal) x0 (ix2 n m) + Ideal.ofBits .f32 0x358637BD#32) := by
  rw [val_main_v39_apply, val_main_v38_apply, val_main_v37_apply, val_main_cst_3_apply]
  rfl

/-! ## A sum over the 1152 literals is the sum over each half -/

theorem sum_halves {M : Type} [AddCommMonoid M] (f : Fin 1152 → M) :
    ∑ m : Fin 1152, f m = ∑ k : Fin 576, f (lo k) + ∑ k : Fin 576, f (hi k) := by
  have h := Fin.sum_univ_add (a := 576) (b := 576) (fun i => f i)
  refine h.trans ?_
  congr 1 <;> exact Finset.sum_congr rfl (fun k _ => congrArg f (Fin.ext rfl))

/-! ## The clause exponent -/

theorem clause_exponent (x0 : FVec Ideal S16x64x56x56 .f32) (x1 : FVec Ideal S256x1152 .f32)
    (hx1 : ∀ i : S256x1152.Idx, ∃ r : ℝ, x1 i = (r : EReal)) (n : Fin 50176) (c : Fin 256) :
    val_main_v41 (F := Ideal) x0 x1 (ix2 n c)
      = (∑ k : Fin 576, Ideal.log (val_main_v22 (F := Ideal) x0 (ix2 n k) + Ideal.ofBits .f32 0x358637BD#32)
              * val_main_v34 (F := Ideal) x1 (ix2 c (lo k)))
        + ∑ k : Fin 576, Ideal.log ((Ideal.ofBits .f32 0x3F800000#32 - val_main_v22 (F := Ideal) x0 (ix2 n k)) + Ideal.ofBits .f32 0x358637BD#32)
              * val_main_v34 (F := Ideal) x1 (ix2 c (hi k)) := by
  have el : ∀ m : Fin 1152, lidx_main_v41 (ix2 n c) m = ix2 n m := fun m =>
    funext fun a => Fin.ext (by match a with | ⟨0, _⟩ => rfl | ⟨1, _⟩ => rfl)
  have er : ∀ m : Fin 1152, idx_main_v40 (ridx_main_v41 (ix2 n c) m) = ix2 c m := fun m =>
    funext fun a => Fin.ext (by match a with | ⟨0, _⟩ => rfl | ⟨1, _⟩ => rfl)
  have hterm : ∀ m : Fin 1152,
      val_main_v39 (F := Ideal) x0 (lidx_main_v41 (ix2 n c) m) * val_main_v40 (F := Ideal) x1 (ridx_main_v41 (ix2 n c) m)
        = Ideal.log (val_main_v25 (F := Ideal) x0 (ix2 n m) + Ideal.ofBits .f32 0x358637BD#32)
            * val_main_v34 (F := Ideal) x1 (ix2 c m) := fun m => by
    rw [val_main_v40_apply, el, er, log_literal, include_eq_hard x1 hx1]
  rw [val_main_v41_apply, Finset.sum_congr rfl (fun m _ => hterm m), sum_halves]
  simp only [literal_lo, literal_hi]

/-! ## The logits -/

theorem ref_core (x0 : FVec Ideal S16x64x56x56 .f32) (x1 : FVec Ideal S256x1152 .f32) (x2 : FVec Ideal S128x256 .f32)
    (hx1 : ∀ i : S256x1152.Idx, ∃ r : ℝ, x1 i = (r : EReal)) (n : Fin 50176) (j : Fin 128) :
    val_main_v44 (F := Ideal) x0 x1 x2 (ix2 n j)
      = ∑ c : Fin 256, Ideal.exp
          ((∑ k : Fin 576, Ideal.log (val_main_v22 (F := Ideal) x0 (ix2 n k) + Ideal.ofBits .f32 0x358637BD#32)
                * val_main_v34 (F := Ideal) x1 (ix2 c (lo k)))
           + ∑ k : Fin 576, Ideal.log ((Ideal.ofBits .f32 0x3F800000#32 - val_main_v22 (F := Ideal) x0 (ix2 n k)) + Ideal.ofBits .f32 0x358637BD#32)
                * val_main_v34 (F := Ideal) x1 (ix2 c (hi k)))
        * x2 (ix2 j c) := by
  have el : ∀ c : Fin 256, lidx_main_v44 (ix2 n j) c = ix2 n c := fun c =>
    funext fun a => Fin.ext (by match a with | ⟨0, _⟩ => rfl | ⟨1, _⟩ => rfl)
  have er : ∀ c : Fin 256, idx_main_v43 (ridx_main_v44 (ix2 n j) c) = ix2 j c := fun c =>
    funext fun a => Fin.ext (by match a with | ⟨0, _⟩ => rfl | ⟨1, _⟩ => rfl)
  rw [val_main_v44_apply]
  refine Finset.sum_congr rfl fun c _ => ?_
  rw [val_main_v43_apply, el, er, val_main_v42_apply, clause_exponent x0 x1 hx1 n c]
  rfl

end Cert.ReferenceIdeal.RefValue

end
-- ==== Proof.Bridge.lean ====
/-
  The two score matrices are one.

  Entry `(n, j)` of the kernel program's score matrix is the vote, for class `j`, of the 256 clauses on patch `n`,
  each clause the exponential of the masked sums of the logarithms of the patch's 576 literals and of their 576
  complements.  The reference computes the same vote with ONE sum over the 1152 concatenated literals against the
  inclusion matrix `soft + (hard - soft)`; for real weights that matrix is `hard`, and the long sum splits into the
  two halves.  Both programs then re-lay the score matrix by the same three host lines.
-/
import proofs.«107757_j75084618269072_1_alg».proof.Proof.KernelValue
import proofs.«107757_j75084618269072_1_alg».proof.Proof.HostValues
import proofs.«107757_j75084618269072_1_alg».proof.Proof.RefCore

noncomputable section

namespace Cert.KernelIdeal.KVal

open Cert.KernelIdeal Cert.KernelIdeal.Gen Cert.KernelIdeal.Frm
open Cert.KernelIdeal.Facts₀ Cert.KernelIdeal.Facts
open Idealize.ShloMosaic Idealize.ShloMosaic.TcCoe Idealize.ShloMosaic.ValueIdx Idealize.ShloMosaic.StableHlo
open Idealize.SL Idealize.SL.Sem
open Idealize.ShloMosaic.Pipeline (Dat Cfg Window)
open TmSpec

variable (m : (ℓ : Loc nD τ sig) → Buf (Elt Ideal) ℓ) (ρ : Dev nD → PrngReg)

/-- A score depends on its row, masks and votes entry by entry. -/
theorem score_congr {r r' : Fin 576 → EReal} {p p' q q' : Fin 576 → Fin 256 → EReal} {v v' : Fin 256 → EReal}
    (hr : ∀ k, r k = r' k) (hp : ∀ k c, p k c = p' k c) (hq : ∀ k c, q k c = q' k c) (hv : ∀ c, v c = v' c) :
    TmCore.score r p q v = TmCore.score r' p' q' v' := by
  have e1 : r = r' := funext hr
  have e2 : p = p' := funext fun k => funext (hp k)
  have e3 : q = q' := funext fun k => funext (hq k)
  have e4 : v = v' := funext hv
  subst e1 e2 e3 e4; rfl

/-- The score matrix depends on the four arrays only. -/
theorem G_congr {a0 b0 : S50176x576.Idx → EReal} {a1 b1 a2 b2 : S576x256.Idx → EReal} {a3 b3 : S256x128.Idx → EReal}
    (h0 : a0 = b0) (h1 : a1 = b1) (h2 : a2 = b2) (h3 : a3 = b3) : G a0 a1 a2 a3 = G b0 b1 b2 b3 := by
  subst h0 h1 h2 h3; rfl

/-- The score matrix at `(n, j)`: the score of row `n` of the patch matrix for column `j` of the vote matrix. -/
theorem G_apply (a0 : S50176x576.Idx → EReal) (a1 a2 : S576x256.Idx → EReal) (a3 : S256x128.Idx → EReal) (n : Fin 50176) (j : Fin 128) :
    G a0 a1 a2 a3 (ix2 n j)
      = TmCore.score (fun k => a0 (ix2 n k)) (fun k c => a1 (ix2 k c)) (fun k c => a2 (ix2 k c)) (fun c => a3 (ix2 c j)) := rfl

/-- The kernel program's score matrix at `(n, j)`, in terms of the reference's patch matrix and 0/1 inclusion matrix. -/
theorem kernel_entry (c : Dev nD) (n : Fin 50176) (j : Fin 128) :
    (dats m 0 c).arrAt 4 cfg0.N (ix2 n j)
      = TmCore.score
          (fun k => Cert.ReferenceIdeal.ReadP.val_main_v22 (F := Ideal) (m ((c.tc : Thread nD τ).loc main_arg0)) (ix2 n k))
          (fun k c' => Cert.ReferenceIdeal.ReadP.val_main_v34 (F := Ideal) (m ((c.tc : Thread nD τ).loc main_arg1)) (ix2 c' (lo k)))
          (fun k c' => Cert.ReferenceIdeal.ReadP.val_main_v34 (F := Ideal) (m ((c.tc : Thread nD τ).loc main_arg1)) (ix2 c' (hi k)))
          (fun c' => m ((c.tc : Thread nD τ).loc main_arg2) (ix2 j c')) := by
  have h : (dats m 0 c).arrAt 4 cfg0.N = G _ _ _ _ :=
    (final m c).trans (G_congr (patches_eq m c) (pos_eq m c) (neg_eq m c) (votes_eq m c))
  rw [h, G_apply]
  exact score_congr (fun _ => rfl) (fun k c' => pos_apply _ k c') (fun k c' => neg_apply _ k c') (fun c' => votes_apply _ c' j)

/-- The host lines after the region re-lay the score matrix the region wrote. -/
theorem tail_eq (c : Dev nD) :
    Pipeline.afterTail₀ cfgs (dats m) 0 (V0 m) [hostOps1] c main_v40 = tail ((dats m 0 c).arrAt 4 cfg0.N) := by
  unfold Pipeline.afterTail₀
  show StableHlo.after hostOps1 _ (Proc.devRef .tc main_v40) = _
  after_results
  rw [Pipeline.withArrays_arr spec0 launch0.win.arr_inj c _ _ 4]
  rfl

/-- For real weights, the kernel program's result is the reference's result term of the same arguments. -/
theorem result_eq (c : Dev nD)
    (hx1 : ∀ i : Cert.ReferenceIdeal.S256x1152.Idx, ∃ r : ℝ, m ((c.tc : Thread nD τ).loc main_arg1) i = (r : EReal)) :
    Pipeline.afterTail₀ cfgs (dats m) 0 (V0 m) [hostOps1] c main_v40
      = Cert.ReferenceIdeal.ReadP.val_main_v47 (F := Ideal) (m ((c.tc : Thread nD τ).loc main_arg0))
          (m ((c.tc : Thread nD τ).loc main_arg1)) (m ((c.tc : Thread nD τ).loc main_arg2)) := by
  rw [tail_eq, ref_tail]
  refine congrArg tail (funext fun i => ?_)
  obtain ⟨n, j, rfl⟩ : ∃ (n : Fin 50176) (j : Fin 128), i = ix2 n j := ⟨i 0, i 1, eq_ix2 i⟩
  rw [kernel_entry m c n j]
  exact (Cert.ReferenceIdeal.RefValue.ref_core _ _ _ hx1 n j).symm

/-- The run of the idealized kernel program with its result named: for real weights it ends at the reference's
    result term, the arguments unchanged. -/
theorem run_value
    (hx1 : ∀ (c : Dev nD) (i : Cert.ReferenceIdeal.S256x1152.Idx), ∃ r : ℝ, m ((c.tc : Thread nD τ).loc main_arg1) i = (r : EReal)) :
    θ_run defs (onTc (τ := τ) (main (F := Ideal))) ⟨m, fun _ => 0, ρ⟩ (fun r => ∀ c : Dev nD,
      r.2.mem ((c.tc : Thread nD τ).loc main_v40)
        = Cert.ReferenceIdeal.ReadP.val_main_v47 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v40 (Pipeline.mem_restRefs_of main_v40 (by decide) (by decide))).trans (result_eq m c (hx1 c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KVal

end
-- ==== Proof.LibAfterAppend.lean ====
/-
  Folding a list of host operations over a valuation, one stretch after another.

  `StableHlo.after ops W` folds each operation's result into the valuation `W` in order; folding a concatenation
  is folding the first stretch and then the second over what it leaves. This lets a long program be read in
  stretches, each against an arbitrary starting valuation.
-/
import Idealize.ShloMosaic.Lib.StableHlo.Run

namespace Cert.LibAfterAppend

open Idealize.ShloMosaic Idealize.ShloMosaic.StableHlo

/-- Folding two stretches of operations one after the other is folding their concatenation. -/
theorem after_concat {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A list cut at `k`: folding it is folding the first `k` operations, then the rest. -/
theorem after_take_drop {τ : Topo} {sig : RefSig} {Val : EltTy → Type} (k : Nat) (l : List (HloOp τ sig Val)) (W : Valuation τ sig Val) :
    after l W = after (l.drop k) (after (l.take k) W) := by
  rw [← after_concat, List.take_append_drop]

end Cert.LibAfterAppend
-- ==== Proof.RunAlt.lean ====
/-
  The reference program's run, read in two stretches. Its 55 operations are the 25 that build the im2col matrix
  (the pad, nine shifted slices, nine broadcasts, their nine-operand concatenation, two reshapes and a transpose)
  followed by the 30 that compute the logits from that matrix and the two weight arrays. Folding the whole list over
  the launch contents is folding the first stretch and then the second over what it leaves; the second stretch reads
  only three buffers of what the first leaves: the im2col matrix and the two weight arrays, which the first stretch
  does not write. The first stretch is itself read in two pieces: the 21 operations that make the nine shifted windows
  of the padded input, and the concatenation of the nine windows with the three layout operations after it, the windows
  entering as nine plain arguments.
-/
import proofs.«107757_j75084618269072_1_alg».proof.Proof.Gen.ReferenceIdeal
import Idealize.ShloMosaic.Lib.StableHlo.Run
import proofs.«107757_j75084618269072_1_alg».proof.Proof.LibNary9
import proofs.«107757_j75084618269072_1_alg».proof.Proof.LibAfterAppend

noncomputable section

namespace Cert.ReferenceIdeal.ValueA

open Cert.ReferenceIdeal Cert.ReferenceIdeal.Gen Idealize.ShloMosaic Idealize.ShloMosaic.TcCoe Idealize.SL.Sem Idealize.ShloMosaic.StableHlo

variable {F : FTy → Type} [FloatOps F]

/-- @main's 55 operations, in order (a called function's operations stand in its call's place, spelt `TRef.…`). -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x64x56x56, .f32⟩) main_arg0) (TRef.of (T := ⟨S_, .f32⟩) main_call0_v0) (TRef.of (T := ⟨S16x64x58x58, .f32⟩) main_v0) (fun x v => pad S16x64x58x58 ![0, 0, 1, 1] ![0, 0, 1, 1] ![0, 0, 0, 0] x v pads_S16x64x56x56_S16x64x58x58_000_000_110_110 h_S_),
    unary main_v0 main_v1 ((extractStridedSlice S16x64x56x56 ![0, 0, 0, 0] · slices_S16x64x58x58_S16x64x56x56_0_0_0_0) : (⟨S16x64x58x58, .f32⟩ : BufTy).Contents (Elt F) → (⟨S16x64x56x56, .f32⟩ : BufTy).Contents (Elt F)),
    unary main_v0 main_v2 ((extractStridedSlice S16x64x56x56 ![0, 0, 0, 1] · slices_S16x64x58x58_S16x64x56x56_0_0_0_1) : (⟨S16x64x58x58, .f32⟩ : BufTy).Contents (Elt F) → (⟨S16x64x56x56, .f32⟩ : BufTy).Contents (Elt F)),
    unary main_v0 main_v3 ((extractStridedSlice S16x64x56x56 ![0, 0, 0, 2] · slices_S16x64x58x58_S16x64x56x56_0_0_0_2) : (⟨S16x64x58x58, .f32⟩ : BufTy).Contents (Elt F) → (⟨S16x64x56x56, .f32⟩ : BufTy).Contents (Elt F)),
    unary main_v0 main_v4 ((extractStridedSlice S16x64x56x56 ![0, 0, 1, 0] · slices_S16x64x58x58_S16x64x56x56_0_0_1_0) : (⟨S16x64x58x58, .f32⟩ : BufTy).Contents (Elt F) → (⟨S16x64x56x56, .f32⟩ : BufTy).Contents (Elt F)),
    unary main_v0 main_v5 ((extractStridedSlice S16x64x56x56 ![0, 0, 1, 1] · slices_S16x64x58x58_S16x64x56x56_0_0_1_1) : (⟨S16x64x58x58, .f32⟩ : BufTy).Contents (Elt F) → (⟨S16x64x56x56, .f32⟩ : BufTy).Contents (Elt F)),
    unary main_v0 main_v6 ((extractStridedSlice S16x64x56x56 ![0, 0, 1, 2] · slices_S16x64x58x58_S16x64x56x56_0_0_1_2) : (⟨S16x64x58x58, .f32⟩ : BufTy).Contents (Elt F) → (⟨S16x64x56x56, .f32⟩ : BufTy).Contents (Elt F)),
    unary main_v0 main_v7 ((extractStridedSlice S16x64x56x56 ![0, 0, 2, 0] · slices_S16x64x58x58_S16x64x56x56_0_0_2_0) : (⟨S16x64x58x58, .f32⟩ : BufTy).Contents (Elt F) → (⟨S16x64x56x56, .f32⟩ : BufTy).Contents (Elt F)),
    unary main_v0 main_v8 ((extractStridedSlice S16x64x56x56 ![0, 0, 2, 1] · slices_S16x64x58x58_S16x64x56x56_0_0_2_1) : (⟨S16x64x58x58, .f32⟩ : BufTy).Contents (Elt F) → (⟨S16x64x56x56, .f32⟩ : BufTy).Contents (Elt F)),
    unary main_v0 main_v9 ((extractStridedSlice S16x64x56x56 ![0, 0, 2, 2] · slices_S16x64x58x58_S16x64x56x56_0_0_2_2) : (⟨S16x64x58x58, .f32⟩ : BufTy).Contents (Elt F) → (⟨S16x64x56x56, .f32⟩ : BufTy).Contents (Elt F)),
    unary main_v1 main_v10 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v2 main_v11 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v3 main_v12 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v4 main_v13 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v5 main_v14 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v6 main_v15 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v7 main_v16 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v8 main_v17 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v9 main_v18 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    nary ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2),
    reshape main_v19 main_v20 rfl shapeCasts_S16x64x9x56x56_S16x576x3136,
    unary main_v20 main_v21 ((transpose S16x3136x576 [0, 2, 1] · transposes_S16x576x3136_S16x3136x576_0_2_1) : (⟨S16x576x3136, .f32⟩ : BufTy).Contents (Elt F) → (⟨S16x3136x576, .f32⟩ : BufTy).Contents (Elt F)),
    reshape main_v21 main_v22 rfl shapeCasts_S16x3136x576_S50176x576,
    nullary main_cst (constant S_ .f32 0x3F800000#32),
    unary main_cst main_v23 (broadcastInDim S50176x576 ![] bcast_S_S50176x576 : (⟨S_, .f32⟩ : BufTy).Contents (Elt F) → (⟨S50176x576, .f32⟩ : BufTy).Contents (Elt F)),
    binary main_v23 main_v22 main_v24 (subf : (⟨S50176x576, .f32⟩ : BufTy).Contents (Elt F) → (⟨S50176x576, .f32⟩ : BufTy).Contents (Elt F) → (⟨S50176x576, .f32⟩ : BufTy).Contents (Elt F)),
    binary main_v22 main_v24 main_v25 ((fun a b => concatenate S50176x1152 1 [⟨S50176x576, a⟩, ⟨S50176x576, b⟩] concatenates_S50176x576_S50176x576_S50176x1152_d1) : (⟨S50176x576, .f32⟩ : BufTy).Contents (Elt F) → (⟨S50176x576, .f32⟩ : BufTy).Contents (Elt F) → (⟨S50176x1152, .f32⟩ : BufTy).Contents (Elt F)),
    unary main_arg1 main_v26 (Host.negf : (⟨S256x1152, .f32⟩ : BufTy).Contents (Elt F) → (⟨S256x1152, .f32⟩ : BufTy).Contents (Elt F)),
    unary main_v26 main_v27 (Host.exp : (⟨S256x1152, .f32⟩ : BufTy).Contents (Elt F) → (⟨S256x1152, .f32⟩ : BufTy).Contents (Elt F)),
    nullary main_cst_0 (constant S_ .f32 0x3F800000#32),
    unary main_cst_0 main_v28 (broadcastInDim S256x1152 ![] bcast_S_S256x1152 : (⟨S_, .f32⟩ : BufTy).Contents (Elt F) → (⟨S256x1152, .f32⟩ : BufTy).Contents (Elt F)),
    binary main_v28 main_v27 main_v29 (addf : (⟨S256x1152, .f32⟩ : BufTy).Contents (Elt F) → (⟨S256x1152, .f32⟩ : BufTy).Contents (Elt F) → (⟨S256x1152, .f32⟩ : BufTy).Contents (Elt F)),
    nullary main_cst_1 (constant S_ .f32 0x3F800000#32),
    unary main_cst_1 main_v30 (broadcastInDim S256x1152 ![] bcast_S_S256x1152 : (⟨S_, .f32⟩ : BufTy).Contents (Elt F) → (⟨S256x1152, .f32⟩ : BufTy).Contents (Elt F)),
    binary main_v30 main_v29 main_v31 (Host.divf : (⟨S256x1152, .f32⟩ : BufTy).Contents (Elt F) → (⟨S256x1152, .f32⟩ : BufTy).Contents (Elt F) → (⟨S256x1152, .f32⟩ : BufTy).Contents (Elt F)),
    nullary main_cst_2 (constant S_ .f32 0x3F000000#32),
    unary main_cst_2 main_v32 (broadcastInDim S256x1152 ![] bcast_S_S256x1152 : (⟨S_, .f32⟩ : BufTy).Contents (Elt F) → (⟨S256x1152, .f32⟩ : BufTy).Contents (Elt F)),
    binary main_v31 main_v32 main_v33 (cmpf .ogt : (⟨S256x1152, .f32⟩ : BufTy).Contents (Elt F) → (⟨S256x1152, .f32⟩ : BufTy).Contents (Elt F) → (⟨S256x1152, .i1⟩ : BufTy).Contents (Elt F)),
    unary main_v33 main_v34 (uitofp .f32 : (⟨S256x1152, .i1⟩ : BufTy).Contents (Elt F) → (⟨S256x1152, .f32⟩ : BufTy).Contents (Elt F)),
    binary main_v34 main_v31 main_v35 (subf : (⟨S256x1152, .f32⟩ : BufTy).Contents (Elt F) → (⟨S256x1152, .f32⟩ : BufTy).Contents (Elt F) → (⟨S256x1152, .f32⟩ : BufTy).Contents (Elt F)),
    binary main_v31 main_v35 main_v36 (addf : (⟨S256x1152, .f32⟩ : BufTy).Contents (Elt F) → (⟨S256x1152, .f32⟩ : BufTy).Contents (Elt F) → (⟨S256x1152, .f32⟩ : BufTy).Contents (Elt F)),
    nullary main_cst_3 (constant S_ .f32 0x358637BD#32),
    unary main_cst_3 main_v37 (broadcastInDim S50176x1152 ![] bcast_S_S50176x1152 : (⟨S_, .f32⟩ : BufTy).Contents (Elt F) → (⟨S50176x1152, .f32⟩ : BufTy).Contents (Elt F)),
    binary main_v25 main_v37 main_v38 (addf : (⟨S50176x1152, .f32⟩ : BufTy).Contents (Elt F) → (⟨S50176x1152, .f32⟩ : BufTy).Contents (Elt F) → (⟨S50176x1152, .f32⟩ : BufTy).Contents (Elt F)),
    unary main_v38 main_v39 (Host.log : (⟨S50176x1152, .f32⟩ : BufTy).Contents (Elt F) → (⟨S50176x1152, .f32⟩ : BufTy).Contents (Elt F)),
    unary main_v36 main_v40 ((transpose S1152x256 [1, 0] · transposes_S256x1152_S1152x256_1_0) : (⟨S256x1152, .f32⟩ : BufTy).Contents (Elt F) → (⟨S1152x256, .f32⟩ : BufTy).Contents (Elt F)),
    binary main_v39 main_v40 main_v41 ((fun l r => Host.dotGeneral dot_S50176x1152_S1152x256_S50176x256_1_0_0_1_n_n none l r) : (⟨S50176x1152, .f32⟩ : BufTy).Contents (Elt F) → (⟨S1152x256, .f32⟩ : BufTy).Contents (Elt F) → (⟨S50176x256, .f32⟩ : BufTy).Contents (Elt F)),
    unary main_v41 main_v42 (Host.exp : (⟨S50176x256, .f32⟩ : BufTy).Contents (Elt F) → (⟨S50176x256, .f32⟩ : BufTy).Contents (Elt F)),
    unary main_arg2 main_v43 ((transpose S256x128 [1, 0] · transposes_S128x256_S256x128_1_0) : (⟨S128x256, .f32⟩ : BufTy).Contents (Elt F) → (⟨S256x128, .f32⟩ : BufTy).Contents (Elt F)),
    binary main_v42 main_v43 main_v44 ((fun l r => Host.dotGeneral dot_S50176x256_S256x128_S50176x128_1_0_0_1_n_n none l r) : (⟨S50176x256, .f32⟩ : BufTy).Contents (Elt F) → (⟨S256x128, .f32⟩ : BufTy).Contents (Elt F) → (⟨S50176x128, .f32⟩ : BufTy).Contents (Elt F)),
    reshape main_v44 main_v45 rfl shapeCasts_S50176x128_S16x3136x128,
    unary main_v45 main_v46 ((transpose S16x128x3136 [0, 2, 1] · transposes_S16x3136x128_S16x128x3136_0_2_1) : (⟨S16x3136x128, .f32⟩ : BufTy).Contents (Elt F) → (⟨S16x128x3136, .f32⟩ : BufTy).Contents (Elt F)),
    reshape main_v46 main_v47 rfl shapeCasts_S16x128x3136_S16x128x56x56 ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub .., unary_bufs_sub .., reshape_bufs_sub ..⟩

set_option maxRecDepth 8192 in
/-- `main_v47`'s composed term of the arguments (named: it is long). -/
def res_main_v47 (m : (ℓ : Loc nD τ sig) → Buf (Elt F) ℓ) (c : Dev nD) : Buf (Elt F) ((c.tc : Thread nD τ).loc main_v47) :=
  shapeCast _ (transpose S16x128x3136 [0, 2, 1] (shapeCast _ (Host.dotGeneral dot_S50176x256_S256x128_S50176x128_1_0_0_1_n_n none (Host.exp (Host.dotGeneral dot_S50176x1152_S1152x256_S50176x256_1_0_0_1_n_n none (Host.log (addf (concatenate S50176x1152 1 [⟨S50176x576, (shapeCast _ (transpose S16x3136x576 [0, 2, 1] (shapeCast _ (concatenate S16x64x9x56x56 2 [⟨S16x64x1x56x56, (broadcastInDim S16x64x1x56x56 ![0, 1, 3, 4] bcast_S16x64x56x56_S16x64x1x56x56_0_1_3_4 (extractStridedSlice S16x64x56x56 ![0, 0, 0, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_0))⟩, ⟨S16x64x1x56x56, (broadcastInDim S16x64x1x56x56 ![0, 1, 3, 4] bcast_S16x64x56x56_S16x64x1x56x56_0_1_3_4 (extractStridedSlice S16x64x56x56 ![0, 0, 0, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_1))⟩, ⟨S16x64x1x56x56, (broadcastInDim S16x64x1x56x56 ![0, 1, 3, 4] bcast_S16x64x56x56_S16x64x1x56x56_0_1_3_4 (extractStridedSlice S16x64x56x56 ![0, 0, 0, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_2))⟩, ⟨S16x64x1x56x56, (broadcastInDim S16x64x1x56x56 ![0, 1, 3, 4] bcast_S16x64x56x56_S16x64x1x56x56_0_1_3_4 (extractStridedSlice S16x64x56x56 ![0, 0, 1, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_0))⟩, ⟨S16x64x1x56x56, (broadcastInDim S16x64x1x56x56 ![0, 1, 3, 4] bcast_S16x64x56x56_S16x64x1x56x56_0_1_3_4 (extractStridedSlice S16x64x56x56 ![0, 0, 1, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_1))⟩, ⟨S16x64x1x56x56, (broadcastInDim S16x64x1x56x56 ![0, 1, 3, 4] bcast_S16x64x56x56_S16x64x1x56x56_0_1_3_4 (extractStridedSlice S16x64x56x56 ![0, 0, 1, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_2))⟩, ⟨S16x64x1x56x56, (broadcastInDim S16x64x1x56x56 ![0, 1, 3, 4] bcast_S16x64x56x56_S16x64x1x56x56_0_1_3_4 (extractStridedSlice S16x64x56x56 ![0, 0, 2, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_0))⟩, ⟨S16x64x1x56x56, (broadcastInDim S16x64x1x56x56 ![0, 1, 3, 4] bcast_S16x64x56x56_S16x64x1x56x56_0_1_3_4 (extractStridedSlice S16x64x56x56 ![0, 0, 2, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_1))⟩, ⟨S16x64x1x56x56, (broadcastInDim S16x64x1x56x56 ![0, 1, 3, 4] bcast_S16x64x56x56_S16x64x1x56x56_0_1_3_4 (extractStridedSlice S16x64x56x56 ![0, 0, 2, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_2))⟩] concatenates_S16x64x1x56x56_S16x64x1x56x56_S16x64x1x56x56_S16x64x1x56x56_S16x64x1x56x56_S16x64x1x56x56_S16x64x1x56x56_S16x64x1x56x56_S16x64x1x56x56_S16x64x9x56x56_d2) shapeCasts_S16x64x9x56x56_S16x576x3136) transposes_S16x576x3136_S16x3136x576_0_2_1) shapeCasts_S16x3136x576_S50176x576)⟩, ⟨S50176x576, (subf (broadcastInDim S50176x576 ![] bcast_S_S50176x576 (constant S_ .f32 0x3F800000#32)) (shapeCast _ (transpose S16x3136x576 [0, 2, 1] (shapeCast _ (concatenate S16x64x9x56x56 2 [⟨S16x64x1x56x56, (broadcastInDim S16x64x1x56x56 ![0, 1, 3, 4] bcast_S16x64x56x56_S16x64x1x56x56_0_1_3_4 (extractStridedSlice S16x64x56x56 ![0, 0, 0, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_0))⟩, ⟨S16x64x1x56x56, (broadcastInDim S16x64x1x56x56 ![0, 1, 3, 4] bcast_S16x64x56x56_S16x64x1x56x56_0_1_3_4 (extractStridedSlice S16x64x56x56 ![0, 0, 0, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_1))⟩, ⟨S16x64x1x56x56, (broadcastInDim S16x64x1x56x56 ![0, 1, 3, 4] bcast_S16x64x56x56_S16x64x1x56x56_0_1_3_4 (extractStridedSlice S16x64x56x56 ![0, 0, 0, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_0_2))⟩, ⟨S16x64x1x56x56, (broadcastInDim S16x64x1x56x56 ![0, 1, 3, 4] bcast_S16x64x56x56_S16x64x1x56x56_0_1_3_4 (extractStridedSlice S16x64x56x56 ![0, 0, 1, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_0))⟩, ⟨S16x64x1x56x56, (broadcastInDim S16x64x1x56x56 ![0, 1, 3, 4] bcast_S16x64x56x56_S16x64x1x56x56_0_1_3_4 (extractStridedSlice S16x64x56x56 ![0, 0, 1, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_1))⟩, ⟨S16x64x1x56x56, (broadcastInDim S16x64x1x56x56 ![0, 1, 3, 4] bcast_S16x64x56x56_S16x64x1x56x56_0_1_3_4 (extractStridedSlice S16x64x56x56 ![0, 0, 1, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_1_2))⟩, ⟨S16x64x1x56x56, (broadcastInDim S16x64x1x56x56 ![0, 1, 3, 4] bcast_S16x64x56x56_S16x64x1x56x56_0_1_3_4 (extractStridedSlice S16x64x56x56 ![0, 0, 2, 0] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_0))⟩, ⟨S16x64x1x56x56, (broadcastInDim S16x64x1x56x56 ![0, 1, 3, 4] bcast_S16x64x56x56_S16x64x1x56x56_0_1_3_4 (extractStridedSlice S16x64x56x56 ![0, 0, 2, 1] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_1))⟩, ⟨S16x64x1x56x56, (broadcastInDim S16x64x1x56x56 ![0, 1, 3, 4] bcast_S16x64x56x56_S16x64x1x56x56_0_1_3_4 (extractStridedSlice S16x64x56x56 ![0, 0, 2, 2] (pad S16x64x58x58 ![0, 0, 1, 1] ![0, 0, 1, 1] ![0, 0, 0, 0] (m ((c.tc : Thread nD τ).loc main_arg0)) (sitofp .f32 (constantI S_ 32 0#32)) pads_S16x64x56x56_S16x64x58x58_000_000_110_110 h_S_) slices_S16x64x58x58_S16x64x56x56_0_0_2_2))⟩] concatenates_S16x64x1x56x56_S16x64x1x56x56_S16x64x1x56x56_S16x64x1x56x56_S16x64x1x56x56_S16x64x1x56x56_S16x64x1x56x56_S16x64x1x56x56_S16x64x1x56x56_S16x64x9x56x56_d2) shapeCasts_S16x64x9x56x56_S16x576x3136) transposes_S16x576x3136_S16x3136x576_0_2_1) shapeCasts_S16x3136x576_S50176x576))⟩] concatenates_S50176x576_S50176x576_S50176x1152_d1) (broadcastInDim S50176x1152 ![] bcast_S_S50176x1152 (constant S_ .f32 0x358637BD#32)))) (transpose S1152x256 [1, 0] (addf (Host.divf (broadcastInDim S256x1152 ![] bcast_S_S256x1152 (constant S_ .f32 0x3F800000#32)) (addf (broadcastInDim S256x1152 ![] bcast_S_S256x1152 (constant S_ .f32 0x3F800000#32)) (Host.exp (Host.negf (m ((c.tc : Thread nD τ).loc main_arg1)))))) (subf (uitofp .f32 (cmpf .ogt (Host.divf (broadcastInDim S256x1152 ![] bcast_S_S256x1152 (constant S_ .f32 0x3F800000#32)) (addf (broadcastInDim S256x1152 ![] bcast_S_S256x1152 (constant S_ .f32 0x3F800000#32)) (Host.exp (Host.negf (m ((c.tc : Thread nD τ).loc main_arg1)))))) (broadcastInDim S256x1152 ![] bcast_S_S256x1152 (constant S_ .f32 0x3F000000#32)))) (Host.divf (broadcastInDim S256x1152 ![] bcast_S_S256x1152 (constant S_ .f32 0x3F800000#32)) (addf (broadcastInDim S256x1152 ![] bcast_S_S256x1152 (constant S_ .f32 0x3F800000#32)) (Host.exp (Host.negf (m ((c.tc : Thread nD τ).loc main_arg1)))))))) transposes_S256x1152_S1152x256_1_0))) (transpose S256x128 [1, 0] (m ((c.tc : Thread nD τ).loc main_arg2)) transposes_S128x256_S256x128_1_0)) shapeCasts_S50176x128_S16x3136x128) transposes_S16x3136x128_S16x128x3136_0_2_1) shapeCasts_S16x128x3136_S16x128x56x56

/-- `res_main_v47` by its position among the values @main returns, 0 counting from 0: the name for hand proofs to cite, since
    a re-print renumbers `main_v47`. An abbreviation: it unfolds to the `res_main_v47` that `run` states. -/
abbrev res_out0 (m : (ℓ : Loc nD τ sig) → Buf (Elt F) ℓ) (c : Dev nD) : Buf (Elt F) ((c.tc : Thread nD τ).loc main_v47) := res_main_v47 m c

/-! ## The two stretches -/

/-- The first 25 operations: from the input array to the im2col matrix `main_v22`. -/
abbrev pre : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x64x56x56, .f32⟩) main_arg0) (TRef.of (T := ⟨S_, .f32⟩) main_call0_v0) (TRef.of (T := ⟨S16x64x58x58, .f32⟩) main_v0) (fun x v => pad S16x64x58x58 ![0, 0, 1, 1] ![0, 0, 1, 1] ![0, 0, 0, 0] x v pads_S16x64x56x56_S16x64x58x58_000_000_110_110 h_S_),
    unary main_v0 main_v1 ((extractStridedSlice S16x64x56x56 ![0, 0, 0, 0] · slices_S16x64x58x58_S16x64x56x56_0_0_0_0) : (⟨S16x64x58x58, .f32⟩ : BufTy).Contents (Elt F) → (⟨S16x64x56x56, .f32⟩ : BufTy).Contents (Elt F)),
    unary main_v0 main_v2 ((extractStridedSlice S16x64x56x56 ![0, 0, 0, 1] · slices_S16x64x58x58_S16x64x56x56_0_0_0_1) : (⟨S16x64x58x58, .f32⟩ : BufTy).Contents (Elt F) → (⟨S16x64x56x56, .f32⟩ : BufTy).Contents (Elt F)),
    unary main_v0 main_v3 ((extractStridedSlice S16x64x56x56 ![0, 0, 0, 2] · slices_S16x64x58x58_S16x64x56x56_0_0_0_2) : (⟨S16x64x58x58, .f32⟩ : BufTy).Contents (Elt F) → (⟨S16x64x56x56, .f32⟩ : BufTy).Contents (Elt F)),
    unary main_v0 main_v4 ((extractStridedSlice S16x64x56x56 ![0, 0, 1, 0] · slices_S16x64x58x58_S16x64x56x56_0_0_1_0) : (⟨S16x64x58x58, .f32⟩ : BufTy).Contents (Elt F) → (⟨S16x64x56x56, .f32⟩ : BufTy).Contents (Elt F)),
    unary main_v0 main_v5 ((extractStridedSlice S16x64x56x56 ![0, 0, 1, 1] · slices_S16x64x58x58_S16x64x56x56_0_0_1_1) : (⟨S16x64x58x58, .f32⟩ : BufTy).Contents (Elt F) → (⟨S16x64x56x56, .f32⟩ : BufTy).Contents (Elt F)),
    unary main_v0 main_v6 ((extractStridedSlice S16x64x56x56 ![0, 0, 1, 2] · slices_S16x64x58x58_S16x64x56x56_0_0_1_2) : (⟨S16x64x58x58, .f32⟩ : BufTy).Contents (Elt F) → (⟨S16x64x56x56, .f32⟩ : BufTy).Contents (Elt F)),
    unary main_v0 main_v7 ((extractStridedSlice S16x64x56x56 ![0, 0, 2, 0] · slices_S16x64x58x58_S16x64x56x56_0_0_2_0) : (⟨S16x64x58x58, .f32⟩ : BufTy).Contents (Elt F) → (⟨S16x64x56x56, .f32⟩ : BufTy).Contents (Elt F)),
    unary main_v0 main_v8 ((extractStridedSlice S16x64x56x56 ![0, 0, 2, 1] · slices_S16x64x58x58_S16x64x56x56_0_0_2_1) : (⟨S16x64x58x58, .f32⟩ : BufTy).Contents (Elt F) → (⟨S16x64x56x56, .f32⟩ : BufTy).Contents (Elt F)),
    unary main_v0 main_v9 ((extractStridedSlice S16x64x56x56 ![0, 0, 2, 2] · slices_S16x64x58x58_S16x64x56x56_0_0_2_2) : (⟨S16x64x58x58, .f32⟩ : BufTy).Contents (Elt F) → (⟨S16x64x56x56, .f32⟩ : BufTy).Contents (Elt F)),
    unary main_v1 main_v10 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v2 main_v11 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v3 main_v12 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v4 main_v13 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v5 main_v14 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v6 main_v15 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v7 main_v16 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v8 main_v17 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v9 main_v18 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    nary ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2),
    reshape main_v19 main_v20 rfl shapeCasts_S16x64x9x56x56_S16x576x3136,
    unary main_v20 main_v21 ((transpose S16x3136x576 [0, 2, 1] · transposes_S16x576x3136_S16x3136x576_0_2_1) : (⟨S16x576x3136, .f32⟩ : BufTy).Contents (Elt F) → (⟨S16x3136x576, .f32⟩ : BufTy).Contents (Elt F)),
    reshape main_v21 main_v22 rfl shapeCasts_S16x3136x576_S50176x576 ]

/-- The last 30 operations: from the im2col matrix and the two weight arrays to the result. -/
abbrev post : List (HloOp τ sig (Elt F)) :=
  [ nullary main_cst (constant S_ .f32 0x3F800000#32),
    unary main_cst main_v23 (broadcastInDim S50176x576 ![] bcast_S_S50176x576 : (⟨S_, .f32⟩ : BufTy).Contents (Elt F) → (⟨S50176x576, .f32⟩ : BufTy).Contents (Elt F)),
    binary main_v23 main_v22 main_v24 (subf : (⟨S50176x576, .f32⟩ : BufTy).Contents (Elt F) → (⟨S50176x576, .f32⟩ : BufTy).Contents (Elt F) → (⟨S50176x576, .f32⟩ : BufTy).Contents (Elt F)),
    binary main_v22 main_v24 main_v25 ((fun a b => concatenate S50176x1152 1 [⟨S50176x576, a⟩, ⟨S50176x576, b⟩] concatenates_S50176x576_S50176x576_S50176x1152_d1) : (⟨S50176x576, .f32⟩ : BufTy).Contents (Elt F) → (⟨S50176x576, .f32⟩ : BufTy).Contents (Elt F) → (⟨S50176x1152, .f32⟩ : BufTy).Contents (Elt F)),
    unary main_arg1 main_v26 (Host.negf : (⟨S256x1152, .f32⟩ : BufTy).Contents (Elt F) → (⟨S256x1152, .f32⟩ : BufTy).Contents (Elt F)),
    unary main_v26 main_v27 (Host.exp : (⟨S256x1152, .f32⟩ : BufTy).Contents (Elt F) → (⟨S256x1152, .f32⟩ : BufTy).Contents (Elt F)),
    nullary main_cst_0 (constant S_ .f32 0x3F800000#32),
    unary main_cst_0 main_v28 (broadcastInDim S256x1152 ![] bcast_S_S256x1152 : (⟨S_, .f32⟩ : BufTy).Contents (Elt F) → (⟨S256x1152, .f32⟩ : BufTy).Contents (Elt F)),
    binary main_v28 main_v27 main_v29 (addf : (⟨S256x1152, .f32⟩ : BufTy).Contents (Elt F) → (⟨S256x1152, .f32⟩ : BufTy).Contents (Elt F) → (⟨S256x1152, .f32⟩ : BufTy).Contents (Elt F)),
    nullary main_cst_1 (constant S_ .f32 0x3F800000#32),
    unary main_cst_1 main_v30 (broadcastInDim S256x1152 ![] bcast_S_S256x1152 : (⟨S_, .f32⟩ : BufTy).Contents (Elt F) → (⟨S256x1152, .f32⟩ : BufTy).Contents (Elt F)),
    binary main_v30 main_v29 main_v31 (Host.divf : (⟨S256x1152, .f32⟩ : BufTy).Contents (Elt F) → (⟨S256x1152, .f32⟩ : BufTy).Contents (Elt F) → (⟨S256x1152, .f32⟩ : BufTy).Contents (Elt F)),
    nullary main_cst_2 (constant S_ .f32 0x3F000000#32),
    unary main_cst_2 main_v32 (broadcastInDim S256x1152 ![] bcast_S_S256x1152 : (⟨S_, .f32⟩ : BufTy).Contents (Elt F) → (⟨S256x1152, .f32⟩ : BufTy).Contents (Elt F)),
    binary main_v31 main_v32 main_v33 (cmpf .ogt : (⟨S256x1152, .f32⟩ : BufTy).Contents (Elt F) → (⟨S256x1152, .f32⟩ : BufTy).Contents (Elt F) → (⟨S256x1152, .i1⟩ : BufTy).Contents (Elt F)),
    unary main_v33 main_v34 (uitofp .f32 : (⟨S256x1152, .i1⟩ : BufTy).Contents (Elt F) → (⟨S256x1152, .f32⟩ : BufTy).Contents (Elt F)),
    binary main_v34 main_v31 main_v35 (subf : (⟨S256x1152, .f32⟩ : BufTy).Contents (Elt F) → (⟨S256x1152, .f32⟩ : BufTy).Contents (Elt F) → (⟨S256x1152, .f32⟩ : BufTy).Contents (Elt F)),
    binary main_v31 main_v35 main_v36 (addf : (⟨S256x1152, .f32⟩ : BufTy).Contents (Elt F) → (⟨S256x1152, .f32⟩ : BufTy).Contents (Elt F) → (⟨S256x1152, .f32⟩ : BufTy).Contents (Elt F)),
    nullary main_cst_3 (constant S_ .f32 0x358637BD#32),
    unary main_cst_3 main_v37 (broadcastInDim S50176x1152 ![] bcast_S_S50176x1152 : (⟨S_, .f32⟩ : BufTy).Contents (Elt F) → (⟨S50176x1152, .f32⟩ : BufTy).Contents (Elt F)),
    binary main_v25 main_v37 main_v38 (addf : (⟨S50176x1152, .f32⟩ : BufTy).Contents (Elt F) → (⟨S50176x1152, .f32⟩ : BufTy).Contents (Elt F) → (⟨S50176x1152, .f32⟩ : BufTy).Contents (Elt F)),
    unary main_v38 main_v39 (Host.log : (⟨S50176x1152, .f32⟩ : BufTy).Contents (Elt F) → (⟨S50176x1152, .f32⟩ : BufTy).Contents (Elt F)),
    unary main_v36 main_v40 ((transpose S1152x256 [1, 0] · transposes_S256x1152_S1152x256_1_0) : (⟨S256x1152, .f32⟩ : BufTy).Contents (Elt F) → (⟨S1152x256, .f32⟩ : BufTy).Contents (Elt F)),
    binary main_v39 main_v40 main_v41 ((fun l r => Host.dotGeneral dot_S50176x1152_S1152x256_S50176x256_1_0_0_1_n_n none l r) : (⟨S50176x1152, .f32⟩ : BufTy).Contents (Elt F) → (⟨S1152x256, .f32⟩ : BufTy).Contents (Elt F) → (⟨S50176x256, .f32⟩ : BufTy).Contents (Elt F)),
    unary main_v41 main_v42 (Host.exp : (⟨S50176x256, .f32⟩ : BufTy).Contents (Elt F) → (⟨S50176x256, .f32⟩ : BufTy).Contents (Elt F)),
    unary main_arg2 main_v43 ((transpose S256x128 [1, 0] · transposes_S128x256_S256x128_1_0) : (⟨S128x256, .f32⟩ : BufTy).Contents (Elt F) → (⟨S256x128, .f32⟩ : BufTy).Contents (Elt F)),
    binary main_v42 main_v43 main_v44 ((fun l r => Host.dotGeneral dot_S50176x256_S256x128_S50176x128_1_0_0_1_n_n none l r) : (⟨S50176x256, .f32⟩ : BufTy).Contents (Elt F) → (⟨S256x128, .f32⟩ : BufTy).Contents (Elt F) → (⟨S50176x128, .f32⟩ : BufTy).Contents (Elt F)),
    reshape main_v44 main_v45 rfl shapeCasts_S50176x128_S16x3136x128,
    unary main_v45 main_v46 ((transpose S16x128x3136 [0, 2, 1] · transposes_S16x3136x128_S16x128x3136_0_2_1) : (⟨S16x3136x128, .f32⟩ : BufTy).Contents (Elt F) → (⟨S16x128x3136, .f32⟩ : BufTy).Contents (Elt F)),
    reshape main_v46 main_v47 rfl shapeCasts_S16x128x3136_S16x128x56x56 ]

set_option maxRecDepth 8192 in
theorem ops_split : (ops : List (HloOp τ sig (Elt F))) = pre ++ post := rfl

set_option maxRecDepth 8192 in
/-- The im2col matrix as a term of the input array. -/
def preTerm (x : (⟨S16x64x56x56, .f32⟩ : BufTy).Contents (Elt F)) : (⟨S50176x576, .f32⟩ : BufTy).Contents (Elt F) :=
  (shapeCast _ (transpose S16x3136x576 [0, 2, 1] (shapeCast _ (concatenate S16x64x9x56x56 2 [⟨S16x64x1x56x56, (broadcastInDim S16x64x1x56x56 ![0, 1, 3, 4] bcast_S16x64x56x56_S16x64x1x56x56_0_1_3_4 (extractStridedSlice S16x64x56x56 ![0, 0, 0, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_0))⟩, ⟨S16x64x1x56x56, (broadcastInDim S16x64x1x56x56 ![0, 1, 3, 4] bcast_S16x64x56x56_S16x64x1x56x56_0_1_3_4 (extractStridedSlice S16x64x56x56 ![0, 0, 0, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_1))⟩, ⟨S16x64x1x56x56, (broadcastInDim S16x64x1x56x56 ![0, 1, 3, 4] bcast_S16x64x56x56_S16x64x1x56x56_0_1_3_4 (extractStridedSlice S16x64x56x56 ![0, 0, 0, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_2))⟩, ⟨S16x64x1x56x56, (broadcastInDim S16x64x1x56x56 ![0, 1, 3, 4] bcast_S16x64x56x56_S16x64x1x56x56_0_1_3_4 (extractStridedSlice S16x64x56x56 ![0, 0, 1, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_0))⟩, ⟨S16x64x1x56x56, (broadcastInDim S16x64x1x56x56 ![0, 1, 3, 4] bcast_S16x64x56x56_S16x64x1x56x56_0_1_3_4 (extractStridedSlice S16x64x56x56 ![0, 0, 1, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_1))⟩, ⟨S16x64x1x56x56, (broadcastInDim S16x64x1x56x56 ![0, 1, 3, 4] bcast_S16x64x56x56_S16x64x1x56x56_0_1_3_4 (extractStridedSlice S16x64x56x56 ![0, 0, 1, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_2))⟩, ⟨S16x64x1x56x56, (broadcastInDim S16x64x1x56x56 ![0, 1, 3, 4] bcast_S16x64x56x56_S16x64x1x56x56_0_1_3_4 (extractStridedSlice S16x64x56x56 ![0, 0, 2, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_0))⟩, ⟨S16x64x1x56x56, (broadcastInDim S16x64x1x56x56 ![0, 1, 3, 4] bcast_S16x64x56x56_S16x64x1x56x56_0_1_3_4 (extractStridedSlice S16x64x56x56 ![0, 0, 2, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_1))⟩, ⟨S16x64x1x56x56, (broadcastInDim S16x64x1x56x56 ![0, 1, 3, 4] bcast_S16x64x56x56_S16x64x1x56x56_0_1_3_4 (extractStridedSlice S16x64x56x56 ![0, 0, 2, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_2))⟩] concatenates_S16x64x1x56x56_S16x64x1x56x56_S16x64x1x56x56_S16x64x1x56x56_S16x64x1x56x56_S16x64x1x56x56_S16x64x1x56x56_S16x64x1x56x56_S16x64x1x56x56_S16x64x9x56x56_d2) shapeCasts_S16x64x9x56x56_S16x576x3136) transposes_S16x576x3136_S16x3136x576_0_2_1) shapeCasts_S16x3136x576_S50176x576)

set_option maxRecDepth 8192 in
/-- The result as a term of the im2col matrix `a`, the clause weights `w` and the votes `v`. -/
def postTerm (a : (⟨S50176x576, .f32⟩ : BufTy).Contents (Elt F)) (w : (⟨S256x1152, .f32⟩ : BufTy).Contents (Elt F))
    (v : (⟨S128x256, .f32⟩ : BufTy).Contents (Elt F)) : (⟨S16x128x56x56, .f32⟩ : BufTy).Contents (Elt F) :=
  shapeCast _ (transpose S16x128x3136 [0, 2, 1] (shapeCast _ (Host.dotGeneral dot_S50176x256_S256x128_S50176x128_1_0_0_1_n_n none (Host.exp (Host.dotGeneral dot_S50176x1152_S1152x256_S50176x256_1_0_0_1_n_n none (Host.log (addf (concatenate S50176x1152 1 [⟨S50176x576, a⟩, ⟨S50176x576, (subf (broadcastInDim S50176x576 ![] bcast_S_S50176x576 (constant S_ .f32 0x3F800000#32)) a)⟩] concatenates_S50176x576_S50176x576_S50176x1152_d1) (broadcastInDim S50176x1152 ![] bcast_S_S50176x1152 (constant S_ .f32 0x358637BD#32)))) (transpose S1152x256 [1, 0] (addf (Host.divf (broadcastInDim S256x1152 ![] bcast_S_S256x1152 (constant S_ .f32 0x3F800000#32)) (addf (broadcastInDim S256x1152 ![] bcast_S_S256x1152 (constant S_ .f32 0x3F800000#32)) (Host.exp (Host.negf w)))) (subf (uitofp .f32 (cmpf .ogt (Host.divf (broadcastInDim S256x1152 ![] bcast_S_S256x1152 (constant S_ .f32 0x3F800000#32)) (addf (broadcastInDim S256x1152 ![] bcast_S_S256x1152 (constant S_ .f32 0x3F800000#32)) (Host.exp (Host.negf w)))) (broadcastInDim S256x1152 ![] bcast_S_S256x1152 (constant S_ .f32 0x3F000000#32)))) (Host.divf (broadcastInDim S256x1152 ![] bcast_S_S256x1152 (constant S_ .f32 0x3F800000#32)) (addf (broadcastInDim S256x1152 ![] bcast_S_S256x1152 (constant S_ .f32 0x3F800000#32)) (Host.exp (Host.negf w)))))) transposes_S256x1152_S1152x256_1_0))) (transpose S256x128 [1, 0] v transposes_S128x256_S256x128_1_0)) shapeCasts_S50176x128_S16x3136x128) transposes_S16x3136x128_S16x128x3136_0_2_1) shapeCasts_S16x128x3136_S16x128x56x56

set_option maxRecDepth 8192 in
/-- The result's term is the second stretch's term at the first stretch's. -/
theorem res_eq (m : (ℓ : Loc nD τ sig) → Buf (Elt F) ℓ) (c : Dev nD) :
    res_main_v47 m c = postTerm (preTerm (m ((c.tc : Thread nD τ).loc main_arg0))) (m ((c.tc : Thread nD τ).loc main_arg1)) (m ((c.tc : Thread nD τ).loc main_arg2)) := by
  unfold res_main_v47 postTerm preTerm; rfl

/-! ## The first stretch, in three pieces -/

/-- The 21 operations before the concatenation: the pad, the nine shifted slices and their nine broadcasts. -/
abbrev pre1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x64x56x56, .f32⟩) main_arg0) (TRef.of (T := ⟨S_, .f32⟩) main_call0_v0) (TRef.of (T := ⟨S16x64x58x58, .f32⟩) main_v0) (fun x v => pad S16x64x58x58 ![0, 0, 1, 1] ![0, 0, 1, 1] ![0, 0, 0, 0] x v pads_S16x64x56x56_S16x64x58x58_000_000_110_110 h_S_),
    unary main_v0 main_v1 ((extractStridedSlice S16x64x56x56 ![0, 0, 0, 0] · slices_S16x64x58x58_S16x64x56x56_0_0_0_0) : (⟨S16x64x58x58, .f32⟩ : BufTy).Contents (Elt F) → (⟨S16x64x56x56, .f32⟩ : BufTy).Contents (Elt F)),
    unary main_v0 main_v2 ((extractStridedSlice S16x64x56x56 ![0, 0, 0, 1] · slices_S16x64x58x58_S16x64x56x56_0_0_0_1) : (⟨S16x64x58x58, .f32⟩ : BufTy).Contents (Elt F) → (⟨S16x64x56x56, .f32⟩ : BufTy).Contents (Elt F)),
    unary main_v0 main_v3 ((extractStridedSlice S16x64x56x56 ![0, 0, 0, 2] · slices_S16x64x58x58_S16x64x56x56_0_0_0_2) : (⟨S16x64x58x58, .f32⟩ : BufTy).Contents (Elt F) → (⟨S16x64x56x56, .f32⟩ : BufTy).Contents (Elt F)),
    unary main_v0 main_v4 ((extractStridedSlice S16x64x56x56 ![0, 0, 1, 0] · slices_S16x64x58x58_S16x64x56x56_0_0_1_0) : (⟨S16x64x58x58, .f32⟩ : BufTy).Contents (Elt F) → (⟨S16x64x56x56, .f32⟩ : BufTy).Contents (Elt F)),
    unary main_v0 main_v5 ((extractStridedSlice S16x64x56x56 ![0, 0, 1, 1] · slices_S16x64x58x58_S16x64x56x56_0_0_1_1) : (⟨S16x64x58x58, .f32⟩ : BufTy).Contents (Elt F) → (⟨S16x64x56x56, .f32⟩ : BufTy).Contents (Elt F)),
    unary main_v0 main_v6 ((extractStridedSlice S16x64x56x56 ![0, 0, 1, 2] · slices_S16x64x58x58_S16x64x56x56_0_0_1_2) : (⟨S16x64x58x58, .f32⟩ : BufTy).Contents (Elt F) → (⟨S16x64x56x56, .f32⟩ : BufTy).Contents (Elt F)),
    unary main_v0 main_v7 ((extractStridedSlice S16x64x56x56 ![0, 0, 2, 0] · slices_S16x64x58x58_S16x64x56x56_0_0_2_0) : (⟨S16x64x58x58, .f32⟩ : BufTy).Contents (Elt F) → (⟨S16x64x56x56, .f32⟩ : BufTy).Contents (Elt F)),
    unary main_v0 main_v8 ((extractStridedSlice S16x64x56x56 ![0, 0, 2, 1] · slices_S16x64x58x58_S16x64x56x56_0_0_2_1) : (⟨S16x64x58x58, .f32⟩ : BufTy).Contents (Elt F) → (⟨S16x64x56x56, .f32⟩ : BufTy).Contents (Elt F)),
    unary main_v0 main_v9 ((extractStridedSlice S16x64x56x56 ![0, 0, 2, 2] · slices_S16x64x58x58_S16x64x56x56_0_0_2_2) : (⟨S16x64x58x58, .f32⟩ : BufTy).Contents (Elt F) → (⟨S16x64x56x56, .f32⟩ : BufTy).Contents (Elt F)),
    unary main_v1 main_v10 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v2 main_v11 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v3 main_v12 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v4 main_v13 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v5 main_v14 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v6 main_v15 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v7 main_v16 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v8 main_v17 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)),
    unary main_v9 main_v18 (broadcastInDim S16x64x1x56x56 ![0, 1, 3, 4] bcast_S16x64x56x56_S16x64x1x56x56_0_1_3_4 : (⟨S16x64x56x56, .f32⟩ : BufTy).Contents (Elt F) → (⟨S16x64x1x56x56, .f32⟩ : BufTy).Contents (Elt F)) ]

/-- The concatenation of the nine windows and the three layout operations after it. -/
abbrev pre2 : List (HloOp τ sig (Elt F)) :=
  [ nary ![main_v10, main_v11, main_v12, main_v13, main_v14, main_v15, main_v16, main_v17, main_v18] main_v19 (fun u => concatenate S16x64x9x56x56 2 [⟨S16x64x1x56x56, u 0⟩, ⟨S16x64x1x56x56, u 1⟩, ⟨S16x64x1x56x56, u 2⟩, ⟨S16x64x1x56x56, u 3⟩, ⟨S16x64x1x56x56, u 4⟩, ⟨S16x64x1x56x56, u 5⟩, ⟨S16x64x1x56x56, u 6⟩, ⟨S16x64x1x56x56, u 7⟩, ⟨S16x64x1x56x56, u 8⟩] concatenates_S16x64x1x56x56_S16x64x1x56x56_S16x64x1x56x56_S16x64x1x56x56_S16x64x1x56x56_S16x64x1x56x56_S16x64x1x56x56_S16x64x1x56x56_S16x64x1x56x56_S16x64x9x56x56_d2),
    reshape main_v19 main_v20 rfl shapeCasts_S16x64x9x56x56_S16x576x3136,
    unary main_v20 main_v21 ((transpose S16x3136x576 [0, 2, 1] · transposes_S16x576x3136_S16x3136x576_0_2_1) : (⟨S16x576x3136, .f32⟩ : BufTy).Contents (Elt F) → (⟨S16x3136x576, .f32⟩ : BufTy).Contents (Elt F)),
    reshape main_v21 main_v22 rfl shapeCasts_S16x3136x576_S50176x576 ]

set_option maxRecDepth 8192 in
theorem pre_split : (pre : List (HloOp τ sig (Elt F))) = pre1 ++ pre2 := rfl

set_option maxRecDepth 8192 in
/-- Shifted window 0 of the padded input, with a unit axis inserted. -/
def window0 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 0, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_0))

set_option maxRecDepth 8192 in
/-- Shifted window 1 of the padded input, with a unit axis inserted. -/
def window1 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 0, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_1))

set_option maxRecDepth 8192 in
/-- Shifted window 2 of the padded input, with a unit axis inserted. -/
def window2 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 0, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_0_2))

set_option maxRecDepth 8192 in
/-- Shifted window 3 of the padded input, with a unit axis inserted. -/
def window3 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 1, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_0))

set_option maxRecDepth 8192 in
/-- Shifted window 4 of the padded input, with a unit axis inserted. -/
def window4 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 1, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_1))

set_option maxRecDepth 8192 in
/-- Shifted window 5 of the padded input, with a unit axis inserted. -/
def window5 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 1, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_1_2))

set_option maxRecDepth 8192 in
/-- Shifted window 6 of the padded input, with a unit axis inserted. -/
def window6 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 2, 0] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_0))

set_option maxRecDepth 8192 in
/-- Shifted window 7 of the padded input, with a unit axis inserted. -/
def window7 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 2, 1] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_1))

set_option maxRecDepth 8192 in
/-- Shifted window 8 of the padded input, with a unit axis inserted. -/
def window8 (x : (⟨S16x64x56x56, .f32⟩ : BufTy).Contents (Elt F)) : (⟨S16x64x1x56x56, .f32⟩ : BufTy).Contents (Elt F) :=
  (broadcastInDim S16x64x1x56x56 ![0, 1, 3, 4] bcast_S16x64x56x56_S16x64x1x56x56_0_1_3_4 (extractStridedSlice S16x64x56x56 ![0, 0, 2, 2] (pad S16x64x58x58 ![0, 0, 1, 1] ![0, 0, 1, 1] ![0, 0, 0, 0] x (sitofp .f32 (constantI S_ 32 0#32)) pads_S16x64x56x56_S16x64x58x58_000_000_110_110 h_S_) slices_S16x64x58x58_S16x64x56x56_0_0_2_2))

/-- Nine windows joined along the inserted axis. -/
def cat9 (a0 a1 a2 a3 a4 a5 a6 a7 a8 : (⟨S16x64x1x56x56, .f32⟩ : BufTy).Contents (Elt F)) : (⟨S16x64x9x56x56, .f32⟩ : BufTy).Contents (Elt F) :=
  concatenate S16x64x9x56x56 2 [⟨S16x64x1x56x56, a0⟩, ⟨S16x64x1x56x56, a1⟩, ⟨S16x64x1x56x56, a2⟩, ⟨S16x64x1x56x56, a3⟩, ⟨S16x64x1x56x56, a4⟩, ⟨S16x64x1x56x56, a5⟩, ⟨S16x64x1x56x56, a6⟩, ⟨S16x64x1x56x56, a7⟩, ⟨S16x64x1x56x56, a8⟩] concatenates_S16x64x1x56x56_S16x64x1x56x56_S16x64x1x56x56_S16x64x1x56x56_S16x64x1x56x56_S16x64x1x56x56_S16x64x1x56x56_S16x64x1x56x56_S16x64x1x56x56_S16x64x9x56x56_d2

set_option maxRecDepth 8192 in
theorem pre1_v10 (V : Valuation τ sig (Elt F)) :
    after pre1 V (Proc.devRef .tc main_v10) = window0 (V (Proc.devRef .tc main_arg0)) := by
  after_results_simp <;> first | rfl | (unfold window0; rfl)

set_option maxRecDepth 8192 in
theorem pre1_v11 (V : Valuation τ sig (Elt F)) :
    after pre1 V (Proc.devRef .tc main_v11) = window1 (V (Proc.devRef .tc main_arg0)) := by
  after_results_simp <;> first | rfl | (unfold window1; rfl)

set_option maxRecDepth 8192 in
theorem pre1_v12 (V : Valuation τ sig (Elt F)) :
    after pre1 V (Proc.devRef .tc main_v12) = window2 (V (Proc.devRef .tc main_arg0)) := by
  after_results_simp <;> first | rfl | (unfold window2; rfl)

set_option maxRecDepth 8192 in
theorem pre1_v13 (V : Valuation τ sig (Elt F)) :
    after pre1 V (Proc.devRef .tc main_v13) = window3 (V (Proc.devRef .tc main_arg0)) := by
  after_results_simp <;> first | rfl | (unfold window3; rfl)

set_option maxRecDepth 8192 in
theorem pre1_v14 (V : Valuation τ sig (Elt F)) :
    after pre1 V (Proc.devRef .tc main_v14) = window4 (V (Proc.devRef .tc main_arg0)) := by
  after_results_simp <;> first | rfl | (unfold window4; rfl)

set_option maxRecDepth 8192 in
theorem pre1_v15 (V : Valuation τ sig (Elt F)) :
    after pre1 V (Proc.devRef .tc main_v15) = window5 (V (Proc.devRef .tc main_arg0)) := by
  after_results_simp <;> first | rfl | (unfold window5; rfl)

set_option maxRecDepth 8192 in
theorem pre1_v16 (V : Valuation τ sig (Elt F)) :
    after pre1 V (Proc.devRef .tc main_v16) = window6 (V (Proc.devRef .tc main_arg0)) := by
  after_results_simp <;> first | rfl | (unfold window6; rfl)

set_option maxRecDepth 8192 in
theorem pre1_v17 (V : Valuation τ sig (Elt F)) :
    after pre1 V (Proc.devRef .tc main_v17) = window7 (V (Proc.devRef .tc main_arg0)) := by
  after_results_simp <;> first | rfl | (unfold window7; rfl)

set_option maxRecDepth 8192 in
theorem pre1_v18 (V : Valuation τ sig (Elt F)) :
    after pre1 V (Proc.devRef .tc main_v18) = window8 (V (Proc.devRef .tc main_arg0)) := by
  after_results_simp <;> first | rfl | (unfold window8; rfl)

set_option maxRecDepth 8192 in
/-- The concatenation and the layout operations after it, from any contents `W`. -/
theorem pre2_v22 (W : Valuation τ sig (Elt F)) :
    after pre2 W (Proc.devRef .tc main_v22)
      = (shapeCast _ (transpose S16x3136x576 [0, 2, 1] (shapeCast _ (cat9 (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_v17)) (W (Proc.devRef .tc main_v18))) shapeCasts_S16x64x9x56x56_S16x576x3136) transposes_S16x576x3136_S16x3136x576_0_2_1) shapeCasts_S16x3136x576_S50176x576) := by
  after_results_nine; first | rfl | (unfold cat9; rfl)

set_option maxRecDepth 8192 in
/-- The first stretch leaves the im2col matrix of the input array at `main_v22`. -/
theorem pre_v22 (V : Valuation τ sig (Elt F)) :
    after pre V (Proc.devRef .tc main_v22) = preTerm (V (Proc.devRef .tc main_arg0)) := by
  rw [pre_split, Cert.LibAfterAppend.after_concat, pre2_v22, pre1_v10, pre1_v11, pre1_v12, pre1_v13, pre1_v14, pre1_v15, pre1_v16, pre1_v17, pre1_v18]
  unfold preTerm cat9 window0 window1 window2 window3 window4 window5 window6 window7 window8; rfl

set_option maxRecDepth 8192 in
/-- The first stretch does not write the clause weights. -/
theorem pre_arg1 (V : Valuation τ sig (Elt F)) :
    after pre V (Proc.devRef .tc main_arg1) = V (Proc.devRef .tc main_arg1) := by
  after_results_simp <;> rfl

set_option maxRecDepth 8192 in
/-- The first stretch does not write the votes. -/
theorem pre_arg2 (V : Valuation τ sig (Elt F)) :
    after pre V (Proc.devRef .tc main_arg2) = V (Proc.devRef .tc main_arg2) := by
  after_results_simp <;> rfl

set_option maxRecDepth 8192 in
/-- The second stretch, from any contents `W`: the result is its term of `W` at the three buffers it reads. -/
theorem post_v47 (W : Valuation τ sig (Elt F)) :
    after post W (Proc.devRef .tc main_v47)
      = postTerm (W (Proc.devRef .tc main_v22)) (W (Proc.devRef .tc main_arg1)) (W (Proc.devRef .tc main_arg2)) := by
  after_results_simp <;> first | rfl | (unfold postTerm; rfl)

set_option maxRecDepth 8192 in
/-- The whole list, from the launch contents: the result buffer holds the result's term. -/
theorem after_ops_v47 (m : (ℓ : Loc nD τ sig) → Buf (Elt F) ℓ) (c : Dev nD) :
    after ops (launchContents m c) (Proc.devRef .tc main_v47) = res_main_v47 m c := by
  have e : after (ops (F := F)) (launchContents m c) = after post (after pre (launchContents m c)) := by
    rw [ops_split]; exact Cert.LibAfterAppend.after_concat _ _ _
  rw [e, post_v47, pre_v22, pre_arg1, pre_arg2]
  exact (res_eq m c).symm

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = res_main_v47 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v47).trans (after_ops_v47 m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueA

end
-- ==== Proof.RefResult.lean ====
/-
  The reference program's result, as the run states it, is the last stage of its operation-by-operation reading.
-/
import proofs.«107757_j75084618269072_1_alg».proof.Proof.RunAlt
import proofs.«107757_j75084618269072_1_alg».proof.Proof.ReadP

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The composed term of the arguments that the run ends at is the re-laid score matrix `val_main_v47`. -/
theorem res_eq (m : (ℓ : Loc nD τ sig) → Buf (Elt F) ℓ) (c : Dev nD) :
    Cert.ReferenceIdeal.ValueA.res_main_v47 m c
      = Cert.ReferenceIdeal.ReadP.val_main_v47 (F := F) (m ((c.tc : Thread nD τ).loc main_arg0))
          (m ((c.tc : Thread nD τ).loc main_arg1)) (m ((c.tc : Thread nD τ).loc main_arg2)) := by
  unfold Cert.ReferenceIdeal.ValueA.res_main_v47; rfl

end Cert.ReferenceIdeal.RefValue

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The finiteness precondition, decoded for the weight matrix. The precondition is the conjunction of three
  tests, one per argument array: every entry's absolute value is strictly below +∞, all comparison bits
  reduced by "and". If the conjunction is the bit 1 then in particular the second test is 1, and an extended
  real whose absolute value is below ⊤ is a real number: every entry of the weight matrix is real.
-/
import proofs.«107757_j75084618269072_1_alg».proof.Pre_finite_inputs
import proofs.«107757_j75084618269072_1_alg».proof.Proof.Gen.Pre_finite_inputs
import proofs.«107757_j75084618269072_1_alg».proof.Proof.LibFiniteAll
import Idealize.ShloMosaic.Lib.ReduceAll

noncomputable section

open Idealize.ShloMosaic

namespace Cert.Proof.Finite

/-- Under the finiteness precondition every entry of the weight matrix is a real number. -/
theorem w_real (x0 : FVec Ideal Cert.Pre_finite_inputs.S16x64x56x56 .f32) (x1 : FVec Ideal Cert.Pre_finite_inputs.S256x1152 .f32) (x2 : FVec Ideal Cert.Pre_finite_inputs.S128x256 .f32)
    (h : @Cert.Pre_finite_inputs.fn Cert.Pre_finite_inputs.Gen.facts Ideal _ x0 x1 x2 = fun _ => 1#1) :
    ∀ i : Cert.Pre_finite_inputs.S256x1152.Idx, ∃ r : ℝ, x1 i = (r : EReal) := by
  have h0 := congrFun h ValueIdx.ix0
  dsimp only [Cert.Pre_finite_inputs.fn, andi] at h0
  obtain ⟨h01, _⟩ := IntOp.andi_eq_one.1 h0
  obtain ⟨_, h1⟩ := IntOp.andi_eq_one.1 h01
  exact Cert.FiniteAll.all_real x1 _ _ _ ValueIdx.ix0 h1

end Cert.Proof.Finite

end
-- ==== Proof.lean ====
/-
  The certificate of a convolutional fuzzy-clause layer: a kernel that scores image patches against 256 clauses
  and 128 classes, against its array-level reference.

  Both programs unfold a batch of 16 images (64 channels, 56 x 56) into 50176 patches of 576 entries and score
  each patch: a clause is the product of the literals it includes (entries and their complements, each guarded
  by a small constant), computed as the exponential of a sum of logarithms; a class's score is the clauses'
  weighted vote.  The kernel program splits the inclusion matrix into a positive and a negative 0/1 mask on the
  host and runs the scoring as one pipelined region over 49 blocks of 1024 patches; the reference concatenates the
  literals and multiplies by `soft + (hard - soft)`.

  The three frames: each program runs to the end, faults nowhere, and leaves its arguments unchanged
  (the kernel programs by the region's launch and its body's triple, the reference by its operation-by-operation run).
  The idealization changed nothing in the kernel's text.  The value claim: on the extended reals, for finite
  weights, `soft` is a real number, so `soft + (hard - soft) = hard`; the sum over the 1152 literals splits into the
  two sums over 576; and the blocks the region writes back tile the score matrix — the two results are equal entry by
  entry.
-/
import proofs.«107757_j75084618269072_1_alg».proof.Defs
import proofs.«107757_j75084618269072_1_alg».proof.Proof.Gen.Kernel
import proofs.«107757_j75084618269072_1_alg».proof.Proof.Gen.KernelIdeal
import proofs.«107757_j75084618269072_1_alg».proof.Proof.Gen.ReferenceIdeal
import proofs.«107757_j75084618269072_1_alg».proof.Proof.Gen.Pre_finite_inputs
import proofs.«107757_j75084618269072_1_alg».proof.Proof.FrameBits
import proofs.«107757_j75084618269072_1_alg».proof.Proof.Bridge
import proofs.«107757_j75084618269072_1_alg».proof.Proof.RefResult
import proofs.«107757_j75084618269072_1_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs, faults nowhere and keeps its arguments. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueA.run (F := Ideal) m ρ)

/-- The idealization rewrote nothing. -/
theorem preserves : Cert.preserves_Kernel_KernelIdeal := trivial

/-- From memories that agree on the arguments, with finite arguments, both idealized programs end at the same
    re-laid score matrix: the reference's result term of the arguments. -/
theorem algebraic : Cert.algebraic_KernelIdeal_ReferenceIdeal := by
  intro m ρ m' ρ' hpre hagree
  have hx1 : ∀ (c : Dev Cert.KernelIdeal.nD) (i : Cert.ReferenceIdeal.S256x1152.Idx),
      ∃ r : ℝ, m ((c.tc : Thread Cert.KernelIdeal.nD Cert.KernelIdeal.τ).loc Cert.KernelIdeal.main_arg1) i = (r : EReal) :=
    fun c => Cert.Proof.Finite.w_real _ _ _ (hpre c)
  refine ⟨_, Cert.KernelIdeal.KVal.run_value m ρ hx1, ?_⟩
  refine (θ_run Cert.ReferenceIdeal.defs _ _).mono (fun _ h c => ⟨(h c).1.trans ?_, (h c).2⟩)
    (Cert.ReferenceIdeal.ValueA.run (F := Ideal) m' ρ')
  rw [Cert.ReferenceIdeal.RefValue.res_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
